-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 19
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1_d0_w32 : S1024x1.Iotas .tc 32 [0]
  inb_S8192x256_S1024x256_0_0 : ∀ a, (![0, 0] : Fin 2 → Nat) a + S1024x256.size a ≤ S8192x256.size a
  iota_S1024x1024_d1_w32 : S1024x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  inb_S8192x256_S1024x256_1024_0 : ∀ a, (![1024, 0] : Fin 2 → Nat) a + S1024x256.size a ≤ S8192x256.size a
  inb_S8192x256_S1024x256_2048_0 : ∀ a, (![2048, 0] : Fin 2 → Nat) a + S1024x256.size a ≤ S8192x256.size a
  inb_S8192x256_S1024x256_3072_0 : ∀ a, (![3072, 0] : Fin 2 → Nat) a + S1024x256.size a ≤ S8192x256.size a
  inb_S8192x256_S1024x256_4096_0 : ∀ a, (![4096, 0] : Fin 2 → Nat) a + S1024x256.size a ≤ S8192x256.size a
  inb_S8192x256_S1024x256_5120_0 : ∀ a, (![5120, 0] : Fin 2 → Nat) a + S1024x256.size a ≤ S8192x256.size a
  inb_S8192x256_S1024x256_6144_0 : ∀ a, (![6144, 0] : Fin 2 → Nat) a + S1024x256.size a ≤ S8192x256.size a
  inb_S8192x256_S1024x256_7168_0 : ∀ a, (![7168, 0] : Fin 2 → Nat) a + S1024x256.size a ≤ S8192x256.size a
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S8192, .i32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S_, .i32⟩
  | .hbm, ⟨54, _⟩ => ⟨S8192x1, .i32⟩
  | .hbm, ⟨55, _⟩ => ⟨S8192x1, .i32⟩
  | .hbm, ⟨56, _⟩ => ⟨S8192x1, .i32⟩
  | .hbm, ⟨57, _⟩ => ⟨S8192x1x1, .i32⟩
  | .hbm, ⟨58, _⟩ => ⟨S1, .i32⟩
  | .hbm, ⟨59, _⟩ => ⟨S_, .i32⟩
  | .hbm, ⟨60, _⟩ => ⟨S8192x1x1, .i32⟩
  | .hbm, ⟨61, _⟩ => ⟨S8192x1x1, .i1⟩
  | .hbm, ⟨62, _⟩ => ⟨S1x1x1, .i32⟩
  | .hbm, ⟨63, _⟩ => ⟨S8192x1x1, .i32⟩
  | .hbm, ⟨64, _⟩ => ⟨S8192x1x1, .i1⟩
  | .hbm, ⟨65, _⟩ => ⟨S8192x1x1, .i1⟩
  | .hbm, ⟨66, _⟩ => ⟨S_, .i1⟩
  | .hbm, ⟨67, _⟩ => ⟨S8192x1, .i1⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v21 : Ref sig .tc := ⟨.hbm, 48, rfl⟩
abbrev main_v22 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v23 : Ref sig .tc := ⟨.hbm, 71, rfl⟩
abbrev main_cst_3 : Ref sig .tc := ⟨.hbm, 72, rfl⟩
abbrev main_v24 : Ref sig .tc := ⟨.hbm, 73, rfl⟩
abbrev main_cst_4 : Ref sig .tc := ⟨.hbm, 74, rfl⟩
abbrev main_v25 : Ref sig .tc := ⟨.hbm, 75, rfl⟩
abbrev main_v26 : Ref sig .tc := ⟨.hbm, 76, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KBody.lean ====
/-
  The kernel's body as one step of separation logic.

  At a grid point the body reads the whole query tile (1024 rows of the normalized matrix) from its first window's
  staging buffer, reads the resident key matrix (all 8192 rows) from its second window's buffer eight times, 1024 rows at
  a time, and stores one column of 1024 numbers into its output window's buffer: for each row of the tile the logarithm of
  the sum over all 8192 keys of the exponentials of the scaled, diagonal-masked similarities, less the scaled similarity
  with the row's positive partner. `rowPay` is that column as a pure function of the nine loaded blocks (the generated
  payloads threaded as the body threads them); `out2` is what the output buffer holds after the one store; and
  `sound_kernel` says the body, run on whole staging buffers, leaves the inputs as they were and the output at `out2`.
-/
import proofs.«116952_j83391085019210_2_alg».proof.Proof.Gen.Kernel.Launch
import proofs.«116952_j83391085019210_2_alg».proof.Proof.Gen.Kernel.Skeleton
import proofs.«116952_j83391085019210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The query tile: the whole first staging buffer. -/
abbrev rq : Rect S1024x256 := Rect.unit (s := S1024x256) ![0, 0] S1024x256.size inb_S1024x256_S1024x256_0_0
/-- The eight key chunks: rows 1024·k … 1024·k + 1023 of the resident key matrix. -/
abbrev rk0 : Rect S8192x256 := Rect.unit (s := S8192x256) ![0, 0] S1024x256.size inb_S8192x256_S1024x256_0_0
abbrev rk1 : Rect S8192x256 := Rect.unit (s := S8192x256) ![1024, 0] S1024x256.size inb_S8192x256_S1024x256_1024_0
abbrev rk2 : Rect S8192x256 := Rect.unit (s := S8192x256) ![2048, 0] S1024x256.size inb_S8192x256_S1024x256_2048_0
abbrev rk3 : Rect S8192x256 := Rect.unit (s := S8192x256) ![3072, 0] S1024x256.size inb_S8192x256_S1024x256_3072_0
abbrev rk4 : Rect S8192x256 := Rect.unit (s := S8192x256) ![4096, 0] S1024x256.size inb_S8192x256_S1024x256_4096_0
abbrev rk5 : Rect S8192x256 := Rect.unit (s := S8192x256) ![5120, 0] S1024x256.size inb_S8192x256_S1024x256_5120_0
abbrev rk6 : Rect S8192x256 := Rect.unit (s := S8192x256) ![6144, 0] S1024x256.size inb_S8192x256_S1024x256_6144_0
abbrev rk7 : Rect S8192x256 := Rect.unit (s := S8192x256) ![7168, 0] S1024x256.size inb_S8192x256_S1024x256_7168_0
/-- The output column: the whole third staging buffer. -/
abbrev ro : Rect S1024x1 := Rect.unit (s := S1024x1) ![0, 0] S1024x1.size inb_S1024x1_S1024x1_0_0

/-! ## The stored column as a function of the loaded blocks -/

/-- The column the body stores at grid point `i`, from the query tile `q` and the eight key chunks `k0 … k7`: the running
    sum of exponentials and the running positive-pair term are carried chunk by chunk, and the last line is
    `log (sum of exponentials) - positive term`. -/
def rowPay (i : grid0.Coords) (q k0 k1 k2 k3 k4 k5 k6 k7 : Vec F S1024x256 .bf16) : FVec F S1024x1 .f32 :=
  let v1 := k0_pay2 q
  let v5 := k0_pay3 i
  let v12 := k0_pay4 i
  let v30 := k0_pay7 i q k0
  let v39 := k0_pay8 i q k0
  let v64 := k0_pay11 v1 v12 v39 k1
  let v67 := k0_pay12 v1 k2
  let v80 := k0_pay14 v1 v5 v30 k1 k2
  let v82 := k0_pay15 v12
  let cst_27 : F .f32 := Scalar.ofBits .f32 0x00000000#32
  let v105 := k0_pay18 v1 v5 v80 k3
  let v114 := k0_pay19 v1 v12 v64 v67 v82 cst_27 k3
  let v117 := k0_pay20 v1 k4
  let v120 := k0_pay21
  let v124 := k0_pay22 v1 v5 k4
  let cst_42 : F .f32 := Scalar.ofBits .f32 0x41649249#32
  let v155 := k0_pay25 v1 v5 v105 v124 cst_42 k5
  let v164 := k0_pay26 v1 v12 v114 v117 v120 k5
  let v167 := k0_pay27 v1 k6
  let v189 := k0_pay29 v12 v164 v167
  let v205 := k0_pay32 v1 v5 v155 v167 k7
  let v211 := k0_pay33 v1 v12 k7
  k0_pay1 v189 v205 v211

/-- The output buffer after the body: its one store, of `rowPay` of the loads, over the whole buffer. -/
def out2 (i : grid0.Coords) (xq : Vec F S1024x256 .bf16) (xk : Vec F S8192x256 .bf16) : Vec F S1024x1 .f32 :=
  View.canon [⟨ro, rowPay i (View.ld xq rq) (View.ld xk rk0) (View.ld xk rk1) (View.ld xk rk2) (View.ld xk rk3)
    (View.ld xk rk4) (View.ld xk rk5) (View.ld xk rk6) (View.ld xk rk7)⟩]

/-- The one store covers the output buffer. -/
theorem cover2 (p0 : Vec F S1024x1 .f32) (y : S1024x1.Idx) :
    ∃ pc ∈ ([⟨ro, p0⟩] : List (View.Piece (Elt F) S1024x1 .f32)), y ∈ pc.1.set :=
  View.cover_of_tiled [⟨ro, p0⟩] S1024x1.size (by rfl) y

/-! ## The body's triple -/

set_option maxHeartbeats 4000000 in
/-- The body on whole staging memrefs — the query tile's at `xq`, the key matrix's at `xk`, the output's at anything — runs
    to the continuation holding the two inputs as they were and the output at `out2`. -/
theorem sound_kernel (c : Dev nD) (E : Set ℕ) (i : grid0.Coords)
    (arg1 : Memref sig .tc .vmem S1024x256 .bf16) (harg1 : arg1.IsWhole)
    (arg2 : Memref sig .tc .vmem S8192x256 .bf16) (harg2 : arg2.IsWhole)
    (arg3 : Memref sig .tc .vmem S1024x1 .f32) (harg3 : arg3.IsWhole)
    (xq : Vec F S1024x256 .bf16) (xk : Vec F S8192x256 .bf16) (K : PUnit → sProp 𝕄) :
    iprop(owns (c : Thread nD τ) arg1 fullShare xq ∗ owns (c : Thread nD τ) arg2 fullShare xk
        ∗ (∃ d, owns (c : Thread nD τ) arg3 fullShare d)
        ∗ (iprop(owns (c : Thread nD τ) arg1 fullShare xq ∗ owns (c : Thread nD τ) arg2 fullShare xk
            ∗ owns (c : Thread nD τ) arg3 fullShare (out2 i xq xk)) -∗ K ⟨⟩))
      ⊢ wp frame (wpE (defs₀ (F := F)) Variants.none c none) E (cc0__ntxent_kernel i arg1 harg1 arg2 harg2 arg3 harg3) K := by
  simp only [cc0__ntxent_kernel_eq_skeleton]; unfold cc0__ntxent_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.Kernel.Hand

end
-- ==== Proof.KData.lean ====
/-
  The kernel's proof data and its body obligation, at any contents `V` of the core's buffers on entry.

  The pipeline has three windows. Windows 0 and 1 read ONE array, the normalized matrix: window 0 a tile of 1024 rows
  that moves with the grid point, window 1 the whole matrix, fetched once and kept. Window 2 writes back the tile's
  column of results. The core therefore holds the matrix's buffer at two half shares, one per reading window, and the
  result's buffer whole. After the body each reading window's staging buffer still holds its block, and the writing
  window's holds `out2` of the two blocks. Between points nothing but the class's invariant is carried.
-/
import proofs.«116952_j83391085019210_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point (it is fetched at every point). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The resident window's staging buffer holds the whole matrix at every point: fetched at the first, and its block index
    never moves after that. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each reading window's buffer at its block and the writing
    window's at `out2` of the two blocks; the class's invariant; the matrix's buffer shared half and half between its
    two reading windows, the result's held whole; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = out2 (grid0.coords t) (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the reading windows' memrefs hold their blocks, so `sound_kernel` applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.KShare.lean ====
/-
  Entering and leaving the region when two windows read one array.

  On entry the core holds every unscoped buffer whole. The normalized matrix's buffer is read by two windows, so its
  full share is cut into its two halves, one per reading window; the result's buffer goes to the writing window whole;
  everything else bypasses the region. On exit the two halves — both still at the entry contents, since a reading
  window never writes its array — are put back together, and the result's buffer comes back at what the write-backs
  left in it.
-/
import proofs.«116952_j83391085019210_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays: the normalized matrix's and the result's. -/
theorem arr_image : Finset.univ.image (Pipeline.arrRef spec0) = ({main_v6, main_v7} : Finset (Ref sig .tc)) := by decide

theorem v6_ne_v7 : (main_v6 : Ref sig .tc) ∉ ({main_v7} : Finset (Ref sig .tc)) := by decide

/-- The proof data's arrays, window by window: the matrix's buffer at the left half for the tile window and at the right
    half for the resident window, the result's buffer whole. -/
theorem arrays3 (c : Dev nD) (G : (w : Fin cfg0.W) → Buf (Elt F) ((cfg0.win w).arr.view.loc (c.tc : Thread nD τ))) :
    ((dat V c).arrays G : sProp 𝕄)
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2)) := by
  unfold Dat.arrays
  rw [bigSep_W0, (arr_whole0 0).set_eq_univ, (arr_whole0 2).set_eq_univ]
  rfl

/-- The buffers behind the arrays, each whole: the matrix's and the result's. -/
theorem arrBufs2 (c : Dev nD) (W : (b : Ref sig .tc) → Buf (Elt F) ((c : Thread nD τ).loc b)) :
    (Pipeline.arrBufs spec0 c W : sProp 𝕄)
      = iprop((((c.tc : Thread nD τ).loc main_v6) ↦{fullShare} W main_v6) ∗ (((c.tc : Thread nD τ).loc main_v7) ↦{fullShare} W main_v7)) := by
  unfold Pipeline.arrBufs
  rw [arr_image, bigSep_insert v6_ne_v7, bigSep_singleton]
  rfl

/-- ENTRY: the unscoped buffers at `V` are the windows' arrays at the entry contents, at their shares, and the rest. -/
theorem entry_split (c : Dev nD) :
    (unscopedBufs c (V c) : sProp 𝕄)
      ⊢ iprop((dat V c).arrays ((dat V c).arrAt · 0) ∗ Pipeline.unscopedRest spec0 c (V c)) := by
  rw [Pipeline.unscopedBufs_split₀ cfgs 0 winFacts₀0.arr_unscoped c (V c)]
  refine sep_mono ?_ .rfl
  rw [arrBufs2, arrays3]
  iintro ⟨H6, H7⟩
  ihave H6' := (pointsTo_share (PosShare.mem_left_op_right fullShare)).1 $$ H6
  icases H6' with ⟨Ha, Hb⟩
  isplitl [Ha]; · iexact Ha
  isplitl [Hb]; · iexact Hb
  iexact H7

/-- EXIT: the windows' arrays at their final contents and the rest at `V` are the unscoped buffers at any `V'` that
    agrees with `V` off the result's buffer and holds there what the write-backs left. -/
theorem exit_join (V' : (c : Dev nD) → (b : Ref sig .tc) → Buf (Elt F) ((c : Thread nD τ).loc b)) (c : Dev nD)
    (h6 : V' c main_v6 = V c main_v6) (h7 : V' c main_v7 = (dat V c).arrAt 2 cfg0.N)
    (hrest : ∀ b, b ∉ Finset.univ.image (Pipeline.arrRef spec0) → V' c b = V c b) :
    iprop((dat V c).arrays ((dat V c).arrAt · cfg0.N) ∗ Pipeline.unscopedRest spec0 c (V c))
      ⊢ (unscopedBufs c (V' c) : sProp 𝕄) := by
  rw [Pipeline.unscopedBufs_split₀ cfgs 0 winFacts₀0.arr_unscoped c (V' c)]
  refine sep_mono ?_ (Entails.of_eq ?_)
  · rw [arrBufs2, arrays3,
      (dat V c).arrAt_in 0 rfl cfg0.N, (dat V c).arrAt_in 1 rfl cfg0.N, h6, h7]
    iintro ⟨Ha, Hb, H7⟩
    isplitl [Ha Hb]
    · iapply (pointsTo_share (PosShare.mem_left_op_right fullShare)).2
      isplitl [Ha]; · iexact Ha
      iexact Hb
    iexact H7
  · unfold Pipeline.unscopedRest
    exact bigSep_congr fun b hb => by rw [hrest b (Finset.mem_sdiff.mp hb).2]

end Cert.Kernel.Hand

end
-- ==== Proof.KRun.lean ====
/-
  The kernel's run, from the launch to the return.

  @main is three stretches of host operations (stack the inputs; the row norms; clamp, divide, round to the matrix
  unit's format), the kernel's region, and a last stretch (the mean of the column of results). Between two of these
  the core holds every unscoped buffer whole at contents that are a fold from the launch memory: a host stretch applies
  its operations, and the region changes one buffer only, the result's, to what the write-backs of its eight grid points
  leave there. The run says every weakly fair execution terminates with every unscoped buffer at the last of these
  contents.
-/
import proofs.«116952_j83391085019210_2_alg».proof.Proof.KShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the inputs are stacked. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the clamp, the division and the change of format: the region's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the region's exit: the result's buffer at what the write-backs leave, every other buffer as entered. -/
def W4 (c : Dev nD) : Valuation τ sig (Elt F) :=
  Function.update (W3 m ρ c) (Proc.devRef .tc main_v7) ((dat (V3 m ρ) c).arrAt 2 cfg0.N)
theorem W4_v7 (c : Dev nD) : W4 m ρ c (Proc.devRef .tc main_v7) = (dat (V3 m ρ) c).arrAt 2 cfg0.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- After the mean: the return. -/
abbrev W5 : Dev nD → Valuation τ sig (Elt F) := fun c => StableHlo.after hostOps1 (W4 m ρ c)

/-! ## The proof data family and the thread state -/

abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry_split (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V3 m ρ) (V4 m ρ) c (W4_of_ne m ρ c main_v6 (by decide)) (W4_v7 m ρ c)
      (fun b hb => W4_of_ne m ρ c b fun e => hb (by rw [arr_image, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KFrame.lean ====
/-
  The kernel's frame: its two inputs end as launched.

  No host operation writes an input's buffer and the region changes only the result's buffer, so the contents of an
  input's buffer at the last boundary are, stretch by stretch, its contents at launch.
-/
import proofs.«116952_j83391085019210_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.StableHlo

variable {F : FTy → Type} [FloatOps F]

variable (m : (ℓ : Loc nD τ sig) → Buf (Elt F) ℓ) (ρ : Dev nD → PrngReg)

/-- A buffer no operation of a stretch writes holds after the stretch what it held before. -/
theorem keep_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by
          show StableHlo.after hostOps1 (W4 m ρ c) (Proc.devRef .tc main_arg0) = _
          after_results
    _ = W3 m ρ c (Proc.devRef .tc main_arg0) := W4_of_ne m ρ c main_arg0 (by decide)
    _ = W2 m ρ c (Proc.devRef .tc main_arg0) := by
          show StableHlo.after hostOps0_2 (W2 m ρ c) (Proc.devRef .tc main_arg0) = _
          after_results
    _ = W1 m ρ c (Proc.devRef .tc main_arg0) := by
          show StableHlo.after hostOps0_1 (W1 m ρ c) (Proc.devRef .tc main_arg0) = _
          after_results
    _ = W0 m ρ c (Proc.devRef .tc main_arg0) := by
          show StableHlo.after hostOps0 (W0 m ρ c) (Proc.devRef .tc main_arg0) = _
          after_results
    _ = m ((c : Thread nD τ).loc main_arg0) := rfl

theorem keep_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by
          show StableHlo.after hostOps1 (W4 m ρ c) (Proc.devRef .tc main_arg1) = _
          after_results
    _ = W3 m ρ c (Proc.devRef .tc main_arg1) := W4_of_ne m ρ c main_arg1 (by decide)
    _ = W2 m ρ c (Proc.devRef .tc main_arg1) := by
          show StableHlo.after hostOps0_2 (W2 m ρ c) (Proc.devRef .tc main_arg1) = _
          after_results
    _ = W1 m ρ c (Proc.devRef .tc main_arg1) := by
          show StableHlo.after hostOps0_1 (W1 m ρ c) (Proc.devRef .tc main_arg1) = _
          after_results
    _ = W0 m ρ c (Proc.devRef .tc main_arg1) := by
          show StableHlo.after hostOps0 (W0 m ρ c) (Proc.devRef .tc main_arg1) = _
          after_results
    _ = m ((c : Thread nD τ).loc main_arg1) := rfl

/-- THE FRAME: every weakly fair execution of @main terminates, nothing faulting, and both inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (keep_arg0 m ρ c),
     (h c _ (mem_uc main_arg1 (by decide))).trans (keep_arg1 m ρ c)⟩) (run_main m ρ)

end Cert.Kernel.Hand

end
-- ==== Proof.KiBody.lean ====
/-
  The idealized kernel's body as one step of separation logic.

  At a grid point the body reads the whole query tile (1024 rows of the normalized matrix) from its first window's
  staging buffer, reads the resident key matrix (all 8192 rows) from its second window's buffer eight times, 1024 rows at
  a time, and stores one column of 1024 numbers into its output window's buffer: for each row of the tile the logarithm of
  the sum over all 8192 keys of the exponentials of the scaled, diagonal-masked similarities, less the scaled similarity
  with the row's positive partner. `rowPay` is that column as a pure function of the nine loaded blocks (the generated
  payloads threaded as the body threads them); `out2` is what the output buffer holds after the one store; and
  `sound_kernel` says the body, run on whole staging buffers, leaves the inputs as they were and the output at `out2`.
-/
import proofs.«116952_j83391085019210_2_alg».proof.Proof.Gen.KernelIdeal.Launch
import proofs.«116952_j83391085019210_2_alg».proof.Proof.Gen.KernelIdeal.Skeleton
import proofs.«116952_j83391085019210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

/-- The query tile: the whole first staging buffer. -/
abbrev rq : Rect S1024x256 := Rect.unit (s := S1024x256) ![0, 0] S1024x256.size inb_S1024x256_S1024x256_0_0
/-- The eight key chunks: rows 1024·k … 1024·k + 1023 of the resident key matrix. -/
abbrev rk0 : Rect S8192x256 := Rect.unit (s := S8192x256) ![0, 0] S1024x256.size inb_S8192x256_S1024x256_0_0
abbrev rk1 : Rect S8192x256 := Rect.unit (s := S8192x256) ![1024, 0] S1024x256.size inb_S8192x256_S1024x256_1024_0
abbrev rk2 : Rect S8192x256 := Rect.unit (s := S8192x256) ![2048, 0] S1024x256.size inb_S8192x256_S1024x256_2048_0
abbrev rk3 : Rect S8192x256 := Rect.unit (s := S8192x256) ![3072, 0] S1024x256.size inb_S8192x256_S1024x256_3072_0
abbrev rk4 : Rect S8192x256 := Rect.unit (s := S8192x256) ![4096, 0] S1024x256.size inb_S8192x256_S1024x256_4096_0
abbrev rk5 : Rect S8192x256 := Rect.unit (s := S8192x256) ![5120, 0] S1024x256.size inb_S8192x256_S1024x256_5120_0
abbrev rk6 : Rect S8192x256 := Rect.unit (s := S8192x256) ![6144, 0] S1024x256.size inb_S8192x256_S1024x256_6144_0
abbrev rk7 : Rect S8192x256 := Rect.unit (s := S8192x256) ![7168, 0] S1024x256.size inb_S8192x256_S1024x256_7168_0
/-- The output column: the whole third staging buffer. -/
abbrev ro : Rect S1024x1 := Rect.unit (s := S1024x1) ![0, 0] S1024x1.size inb_S1024x1_S1024x1_0_0

/-! ## The stored column as a function of the loaded blocks -/

/-- The column the body stores at grid point `i`, from the query tile `q` and the eight key chunks `k0 … k7`: the running
    sum of exponentials and the running positive-pair term are carried chunk by chunk, and the last line is
    `log (sum of exponentials) - positive term`. -/
def rowPay (i : grid0.Coords) (q k0 k1 k2 k3 k4 k5 k6 k7 : Vec F S1024x256 .bf16) : FVec F S1024x1 .f32 :=
  let v1 := k0_pay2 q
  let v5 := k0_pay3 i
  let v12 := k0_pay4 i
  let v30 := k0_pay7 i q k0
  let v39 := k0_pay8 i q k0
  let v64 := k0_pay11 v1 v12 v39 k1
  let v67 := k0_pay12 v1 k2
  let v80 := k0_pay14 v1 v5 v30 k1 k2
  let v82 := k0_pay15 v12
  let cst_27 : F .f32 := Scalar.ofBits .f32 0x00000000#32
  let v105 := k0_pay18 v1 v5 v80 k3
  let v114 := k0_pay19 v1 v12 v64 v67 v82 cst_27 k3
  let v117 := k0_pay20 v1 k4
  let v120 := k0_pay21
  let v124 := k0_pay22 v1 v5 k4
  let cst_42 : F .f32 := Named.named κ "inv_temperature" 0x41649249#32
  let v155 := k0_pay25 v1 v5 v105 v124 cst_42 k5
  let v164 := k0_pay26 v1 v12 v114 v117 v120 k5
  let v167 := k0_pay27 v1 k6
  let v189 := k0_pay29 v12 v164 v167
  let v205 := k0_pay32 v1 v5 v155 v167 k7
  let v211 := k0_pay33 v1 v12 k7
  k0_pay1 v189 v205 v211

/-- The output buffer after the body: its one store, of `rowPay` of the loads, over the whole buffer. -/
def out2 (i : grid0.Coords) (xq : Vec F S1024x256 .bf16) (xk : Vec F S8192x256 .bf16) : Vec F S1024x1 .f32 :=
  View.canon [⟨ro, rowPay i (View.ld xq rq) (View.ld xk rk0) (View.ld xk rk1) (View.ld xk rk2) (View.ld xk rk3)
    (View.ld xk rk4) (View.ld xk rk5) (View.ld xk rk6) (View.ld xk rk7)⟩]

/-- The one store covers the output buffer. -/
theorem cover2 (p0 : Vec F S1024x1 .f32) (y : S1024x1.Idx) :
    ∃ pc ∈ ([⟨ro, p0⟩] : List (View.Piece (Elt F) S1024x1 .f32)), y ∈ pc.1.set :=
  View.cover_of_tiled [⟨ro, p0⟩] S1024x1.size (by rfl) y

/-! ## The body's triple -/

set_option maxHeartbeats 4000000 in
/-- The body on whole staging memrefs — the query tile's at `xq`, the key matrix's at `xk`, the output's at anything — runs
    to the continuation holding the two inputs as they were and the output at `out2`. -/
theorem sound_kernel (c : Dev nD) (E : Set ℕ) (i : grid0.Coords)
    (arg1 : Memref sig .tc .vmem S1024x256 .bf16) (harg1 : arg1.IsWhole)
    (arg2 : Memref sig .tc .vmem S8192x256 .bf16) (harg2 : arg2.IsWhole)
    (arg3 : Memref sig .tc .vmem S1024x1 .f32) (harg3 : arg3.IsWhole)
    (xq : Vec F S1024x256 .bf16) (xk : Vec F S8192x256 .bf16) (K : PUnit → sProp 𝕄) :
    iprop(owns (c : Thread nD τ) arg1 fullShare xq ∗ owns (c : Thread nD τ) arg2 fullShare xk
        ∗ (∃ d, owns (c : Thread nD τ) arg3 fullShare d)
        ∗ (iprop(owns (c : Thread nD τ) arg1 fullShare xq ∗ owns (c : Thread nD τ) arg2 fullShare xk
            ∗ owns (c : Thread nD τ) arg3 fullShare (out2 i xq xk)) -∗ K ⟨⟩))
      ⊢ wp frame (wpE (defs₀ (F := F)) Variants.none c none) E (cc0__ntxent_kernel i arg1 harg1 arg2 harg2 arg3 harg3) K := by
  simp only [cc0__ntxent_kernel_eq_skeleton]; unfold cc0__ntxent_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.KernelIdeal.Hand

end
-- ==== Proof.KiData.lean ====
/-
  The idealized kernel's proof data and its body obligation, at any contents `V` of the core's buffers on entry.

  The pipeline has three windows. Windows 0 and 1 read ONE array, the normalized matrix: window 0 a tile of 1024 rows
  that moves with the grid point, window 1 the whole matrix, fetched once and kept. Window 2 writes back the tile's
  column of results. The core therefore holds the matrix's buffer at two half shares, one per reading window, and the
  result's buffer whole. After the body each reading window's staging buffer still holds its block, and the writing
  window's holds `out2` of the two blocks. Between points nothing but the class's invariant is carried.
-/
import proofs.«116952_j83391085019210_2_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point (it is fetched at every point). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The resident window's staging buffer holds the whole matrix at every point: fetched at the first, and its block index
    never moves after that. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each reading window's buffer at its block and the writing
    window's at `out2` of the two blocks; the class's invariant; the matrix's buffer shared half and half between its
    two reading windows, the result's held whole; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = out2 (grid0.coords t) (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the reading windows' memrefs hold their blocks, so `sound_kernel` applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KiShare.lean ====
/-
  Entering and leaving the region when two windows read one array.

  On entry the core holds every unscoped buffer whole. The normalized matrix's buffer is read by two windows, so its
  full share is cut into its two halves, one per reading window; the result's buffer goes to the writing window whole;
  everything else bypasses the region. On exit the two halves — both still at the entry contents, since a reading
  window never writes its array — are put back together, and the result's buffer comes back at what the write-backs
  left in it.
-/
import proofs.«116952_j83391085019210_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The buffers behind the three windows' arrays: the normalized matrix's and the result's. -/
theorem arr_image : Finset.univ.image (Pipeline.arrRef spec0) = ({main_v6, main_v7} : Finset (Ref sig .tc)) := by decide

theorem v6_ne_v7 : (main_v6 : Ref sig .tc) ∉ ({main_v7} : Finset (Ref sig .tc)) := by decide

/-- The proof data's arrays, window by window: the matrix's buffer at the left half for the tile window and at the right
    half for the resident window, the result's buffer whole. -/
theorem arrays3 (c : Dev nD) (G : (w : Fin cfg0.W) → Buf (Elt F) ((cfg0.win w).arr.view.loc (c.tc : Thread nD τ))) :
    ((dat V c).arrays G : sProp 𝕄)
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2)) := by
  unfold Dat.arrays
  rw [bigSep_W0, (arr_whole0 0).set_eq_univ, (arr_whole0 2).set_eq_univ]
  rfl

/-- The buffers behind the arrays, each whole: the matrix's and the result's. -/
theorem arrBufs2 (c : Dev nD) (W : (b : Ref sig .tc) → Buf (Elt F) ((c : Thread nD τ).loc b)) :
    (Pipeline.arrBufs spec0 c W : sProp 𝕄)
      = iprop((((c.tc : Thread nD τ).loc main_v6) ↦{fullShare} W main_v6) ∗ (((c.tc : Thread nD τ).loc main_v7) ↦{fullShare} W main_v7)) := by
  unfold Pipeline.arrBufs
  rw [arr_image, bigSep_insert v6_ne_v7, bigSep_singleton]
  rfl

/-- ENTRY: the unscoped buffers at `V` are the windows' arrays at the entry contents, at their shares, and the rest. -/
theorem entry_split (c : Dev nD) :
    (unscopedBufs c (V c) : sProp 𝕄)
      ⊢ iprop((dat V c).arrays ((dat V c).arrAt · 0) ∗ Pipeline.unscopedRest spec0 c (V c)) := by
  rw [Pipeline.unscopedBufs_split₀ cfgs 0 winFacts₀0.arr_unscoped c (V c)]
  refine sep_mono ?_ .rfl
  rw [arrBufs2, arrays3]
  iintro ⟨H6, H7⟩
  ihave H6' := (pointsTo_share (PosShare.mem_left_op_right fullShare)).1 $$ H6
  icases H6' with ⟨Ha, Hb⟩
  isplitl [Ha]; · iexact Ha
  isplitl [Hb]; · iexact Hb
  iexact H7

/-- EXIT: the windows' arrays at their final contents and the rest at `V` are the unscoped buffers at any `V'` that
    agrees with `V` off the result's buffer and holds there what the write-backs left. -/
theorem exit_join (V' : (c : Dev nD) → (b : Ref sig .tc) → Buf (Elt F) ((c : Thread nD τ).loc b)) (c : Dev nD)
    (h6 : V' c main_v6 = V c main_v6) (h7 : V' c main_v7 = (dat V c).arrAt 2 cfg0.N)
    (hrest : ∀ b, b ∉ Finset.univ.image (Pipeline.arrRef spec0) → V' c b = V c b) :
    iprop((dat V c).arrays ((dat V c).arrAt · cfg0.N) ∗ Pipeline.unscopedRest spec0 c (V c))
      ⊢ (unscopedBufs c (V' c) : sProp 𝕄) := by
  rw [Pipeline.unscopedBufs_split₀ cfgs 0 winFacts₀0.arr_unscoped c (V' c)]
  refine sep_mono ?_ (Entails.of_eq ?_)
  · rw [arrBufs2, arrays3,
      (dat V c).arrAt_in 0 rfl cfg0.N, (dat V c).arrAt_in 1 rfl cfg0.N, h6, h7]
    iintro ⟨Ha, Hb, H7⟩
    isplitl [Ha Hb]
    · iapply (pointsTo_share (PosShare.mem_left_op_right fullShare)).2
      isplitl [Ha]; · iexact Ha
      iexact Hb
    iexact H7
  · unfold Pipeline.unscopedRest
    exact bigSep_congr fun b hb => by rw [hrest b (Finset.mem_sdiff.mp hb).2]

end Cert.KernelIdeal.Hand

end
-- ==== Proof.KiRun.lean ====
/-
  The idealized kernel's run, from the launch to the return.

  @main is three stretches of host operations (stack the inputs; the row norms; clamp, divide, round to the matrix
  unit's format), the kernel's region, and a last stretch (the mean of the column of results). Between two of these
  the core holds every unscoped buffer whole at contents that are a fold from the launch memory: a host stretch applies
  its operations, and the region changes one buffer only, the result's, to what the write-backs of its eight grid points
  leave there. The run says every weakly fair execution terminates with every unscoped buffer at the last of these
  contents.
-/
import proofs.«116952_j83391085019210_2_alg».proof.Proof.KiShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the inputs are stacked. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the clamp, the division and the change of format: the region's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the region's exit: the result's buffer at what the write-backs leave, every other buffer as entered. -/
def W4 (c : Dev nD) : Valuation τ sig (Elt F) :=
  Function.update (W3 m ρ c) (Proc.devRef .tc main_v7) ((dat (V3 m ρ) c).arrAt 2 cfg0.N)
theorem W4_v7 (c : Dev nD) : W4 m ρ c (Proc.devRef .tc main_v7) = (dat (V3 m ρ) c).arrAt 2 cfg0.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- After the mean: the return. -/
abbrev W5 : Dev nD → Valuation τ sig (Elt F) := fun c => StableHlo.after hostOps1 (W4 m ρ c)

/-! ## The proof data family and the thread state -/

abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry_split (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V3 m ρ) (V4 m ρ) c (W4_of_ne m ρ c main_v6 (by decide)) (W4_v7 m ρ c)
      (fun b hb => W4_of_ne m ρ c b fun e => hb (by rw [arr_image, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KiFrame.lean ====
/-
  The idealized kernel's frame: its two inputs end as launched.

  No host operation writes an input's buffer and the region changes only the result's buffer, so the contents of an
  input's buffer at the last boundary are, stretch by stretch, its contents at launch.
-/
import proofs.«116952_j83391085019210_2_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F] [Named F]

variable (m : (ℓ : Loc nD τ sig) → Buf (Elt F) ℓ) (ρ : Dev nD → PrngReg)

/-- A buffer no operation of a stretch writes holds after the stretch what it held before. -/
theorem keep_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by
          show StableHlo.after hostOps1 (W4 m ρ c) (Proc.devRef .tc main_arg0) = _
          after_results
    _ = W3 m ρ c (Proc.devRef .tc main_arg0) := W4_of_ne m ρ c main_arg0 (by decide)
    _ = W2 m ρ c (Proc.devRef .tc main_arg0) := by
          show StableHlo.after hostOps0_2 (W2 m ρ c) (Proc.devRef .tc main_arg0) = _
          after_results
    _ = W1 m ρ c (Proc.devRef .tc main_arg0) := by
          show StableHlo.after hostOps0_1 (W1 m ρ c) (Proc.devRef .tc main_arg0) = _
          after_results
    _ = W0 m ρ c (Proc.devRef .tc main_arg0) := by
          show StableHlo.after hostOps0 (W0 m ρ c) (Proc.devRef .tc main_arg0) = _
          after_results
    _ = m ((c : Thread nD τ).loc main_arg0) := rfl

theorem keep_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by
          show StableHlo.after hostOps1 (W4 m ρ c) (Proc.devRef .tc main_arg1) = _
          after_results
    _ = W3 m ρ c (Proc.devRef .tc main_arg1) := W4_of_ne m ρ c main_arg1 (by decide)
    _ = W2 m ρ c (Proc.devRef .tc main_arg1) := by
          show StableHlo.after hostOps0_2 (W2 m ρ c) (Proc.devRef .tc main_arg1) = _
          after_results
    _ = W1 m ρ c (Proc.devRef .tc main_arg1) := by
          show StableHlo.after hostOps0_1 (W1 m ρ c) (Proc.devRef .tc main_arg1) = _
          after_results
    _ = W0 m ρ c (Proc.devRef .tc main_arg1) := by
          show StableHlo.after hostOps0 (W0 m ρ c) (Proc.devRef .tc main_arg1) = _
          after_results
    _ = m ((c : Thread nD τ).loc main_arg1) := rfl

/-- THE FRAME: every weakly fair execution of @main terminates, nothing faulting, and both inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (keep_arg0 m ρ c),
     (h c _ (mem_uc main_arg1 (by decide))).trans (keep_arg1 m ρ c)⟩) (run_main m ρ)

end Cert.KernelIdeal.Hand

end
-- ==== Proof.KiBlocks.lean ====
/-
  What the body's loads read, in the matrix's own coordinates.

  At grid point `t` the tile window's block is rows 1024·t … 1024·t + 1023 of the matrix, and the resident window's block
  is the whole matrix; the body loads the tile whole and the resident block 1024 rows at a time. So the tile load at
  `(r, k)` is the matrix at `(1024 t + r, k)`, and the `c`-th chunk load at `(j, k)` is the matrix at `(1024 c + j, k)`.
-/
import proofs.«116952_j83391085019210_2_alg».proof.Proof.KiData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

theorem hz : (![0, 0] : Fin 2 → Nat) = fun _ => 0 := funext fun a => by fin_cases a <;> rfl

/-- The printed index maps, decided over the grid: the tile and the result move with the point along the rows, the
    resident window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The point's one coordinate is the point. -/
theorem coords_val : ∀ t : Fin cfg0.N, ((grid0.coords t) 0).val = t.val :=
  (by decide +kernel : ∀ t : Fin grid0.N, _)

/-- The tile load at `(r, k)` is the matrix at `(1024 t + r, k)`. -/
theorem tile_read (c : Dev nD) (t : Fin cfg0.N) (r : Fin 1024) (k : Fin 256) (h : t.val * 1024 + r.val < 8192) :
    View.ld (iblk V c 0 t) rq (ix2 r k) = (V c main_v6 : S8192x256.Idx → Elt F .bf16) (ix2 ⟨t.val * 1024 + r.val, h⟩ k) := by
  obtain ⟨e0, e1, -, -, -, -⟩ := idx_facts t
  show (V c main_v6 : S8192x256.Idx → Elt F .bf16) (((cfg0.win 0).blk t).view.emb (rq.emb (ix2 r k))) = _
  refine congrArg _ (funext fun a => Fin.ext ?_)
  match a with
  | ⟨0, _⟩ => show win0_0.index t (0 : Fin 2) * 1024 + 1 * (0 + 1 * r.val) = t.val * 1024 + r.val; omega
  | ⟨1, _⟩ => show win0_0.index t (1 : Fin 2) * 256 + 1 * (0 + 1 * k.val) = k.val; omega

/-- A load of 1024 rows of the resident block from row `o` on, at `(j, k)`, is the matrix at `(o + j, k)`. -/
theorem chunk_read (c : Dev nD) (t : Fin cfg0.N) (o : Nat) (inb : ∀ a, (![o, 0] : Fin 2 → Nat) a + S1024x256.size a ≤ S8192x256.size a)
    (j : Fin 1024) (k : Fin 256) (h : o + j.val < 8192) :
    View.ld (iblk V c 1 t) (Rect.unit (s := S8192x256) ![o, 0] S1024x256.size inb) (ix2 j k)
      = (V c main_v6 : S8192x256.Idx → Elt F .bf16) (ix2 ⟨o + j.val, h⟩ k) := by
  obtain ⟨-, -, e2, e3, -, -⟩ := idx_facts t
  show (V c main_v6 : S8192x256.Idx → Elt F .bf16)
      (((cfg0.win 1).blk t).view.emb ((Rect.unit (s := S8192x256) ![o, 0] S1024x256.size inb).emb (ix2 j k))) = _
  refine congrArg _ (funext fun a => Fin.ext ?_)
  match a with
  | ⟨0, _⟩ => show win0_1.index t (0 : Fin 2) * 8192 + 1 * (o + 1 * j.val) = o + j.val; omega
  | ⟨1, _⟩ => show win0_1.index t (1 : Fin 2) * 256 + 1 * (0 + 1 * k.val) = k.val; omega

end Cert.KernelIdeal.Hand

end
-- ==== Proof.Spec.lean ====
/-
  The contrastive loss, stated once over the normalized rows.

  `Z i k` is entry `k` of the `i`-th normalized row (8192 rows: the two halves of the batch stacked; 256 features). The
  similarity of rows `i` and `j` is their inner product; on the diagonal it is replaced by a large negative fill; the
  positive partner of row `i` is row `i + 4096` in the first half and `i - 4096` in the second.

  Two arrangements of one number:
  * `lossK`: per row, the logarithm of the sum over ALL columns — taken 1024 columns at a time, eight chunks — of the
    exponentials of the masked similarities times a scale, less the scaled similarity with the partner (picked out of
    each chunk by a one-hot sum); averaged over the rows.
  * `lossR`: per row, the log-softmax of the masked similarities DIVIDED by a temperature, shifted by some per-row real
    `M i` (a softmax's running maximum), read at the partner; averaged over the rows and negated.
  The scale is the exact reciprocal of the temperature, so the two agree whenever the rows and the shifts are real
  numbers (`loss_eq`, proved elsewhere): the shift cancels between the logit and the log-sum-exp.
-/
import Idealize.ShloMosaic.PureOps.Ideal

noncomputable section

namespace Cert.NTXent

open Idealize.ShloMosaic
open scoped BigOperators

/-- The diagonal's fill, -9·10¹⁵ as the float both programs carry. -/
def fill : EReal := Ideal.ofBits .f32 0xD9FFCB9E#32
/-- The scale: the exact reciprocal 2²⁷ / 9395241 of the temperature below. -/
def scale : EReal := ((134217728 / 9395241 : ℝ) : EReal)
/-- The temperature: 0.07 as a float, exactly 9395241 / 2²⁷. -/
def temp : EReal := Ideal.ofBits .f32 0x3D8F5C29#32
/-- The number of rows, 8192, as a float. -/
def rows : EReal := Ideal.ofBits .f32 0x46000000#32

/-- The similarity of rows `i` and `j`: their inner product. -/
def sim (Z : Fin 8192 → Fin 256 → EReal) (i j : Fin 8192) : EReal := ∑ k : Fin 256, Z i k * Z j k

/-- The positive partner of row `i`. -/
def lab (i : Fin 8192) : Fin 8192 :=
  if h : i.val < 4096 then ⟨i.val + 4096, by omega⟩ else ⟨i.val - 4096, by omega⟩

/-- The similarities with the diagonal masked. -/
def masked (Z : Fin 8192 → Fin 256 → EReal) (i j : Fin 8192) : EReal := if i = j then fill else sim Z i j

/-- Column `j` of chunk `c`: column `1024 c + j`. -/
def col (c : Fin 8) (j : Fin 1024) : Fin 8192 := ⟨c.val * 1024 + j.val, by omega⟩

/-- One row of the loss, chunk by chunk, unshifted. -/
def rowK (Z : Fin 8192 → Fin 256 → EReal) (i : Fin 8192) : EReal :=
  Ideal.log (∑ c : Fin 8, ∑ j : Fin 1024, Ideal.exp (masked Z i (col c j) * scale))
    - ∑ c : Fin 8, (∑ j : Fin 1024, if col c j = lab i then sim Z i (col c j) else 0) * scale

/-- The mean of the rows. -/
def lossK (Z : Fin 8192 → Fin 256 → EReal) : EReal := Ideal.div (∑ i : Fin 8192, rowK Z i) rows

/-- The logits: masked similarities over the temperature. -/
def logit (Z : Fin 8192 → Fin 256 → EReal) (i j : Fin 8192) : EReal := Ideal.div (masked Z i j) temp

/-- One row's log-softmax, shifted by `M i`, at the partner. -/
def rowR (Z : Fin 8192 → Fin 256 → EReal) (M : Fin 8192 → EReal) (i : Fin 8192) : EReal :=
  (logit Z i (lab i) - M i) - Ideal.log (∑ j : Fin 8192, Ideal.exp (logit Z i j - M i))

/-- The negated mean of the rows. -/
def lossR (Z : Fin 8192 → Fin 256 → EReal) (M : Fin 8192 → EReal) : EReal :=
  - Ideal.div (∑ i : Fin 8192, rowR Z M i) rows

end Cert.NTXent

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KiPayload.lean ====
/-
  The column the kernel body stores, read at a row.

  At grid point `t` the body holds the query tile (rows `1024 t … 1024 t + 1023` of the normalized matrix `Z`) and, one after
  another, the eight key chunks (rows `1024 c … 1024 c + 1023`). Per chunk it forms the 1024 × 1024 block of inner products
  (a block product contracting both operands' last axis), replaces the entries on the GLOBAL diagonal — row word
  `1024 t + r` equal to column word `1024 c + j` — by the fill, multiplies by the scale, exponentiates and sums along the
  row; and it picks, by a one-hot sum along the row, the entry whose column word equals the row's partner word
  (`row ± 4096`), and scales it. Both are accumulated over the chunks from zero, and the stored value is the logarithm of
  the first running sum less the second.

  Read at row `r` this is `rowK Z (1024 t + r)`. The proof has one lemma per kind of operation, each for a generic chunk:
  the index words as 32-bit words of small naturals (so equality of words is equality of naturals), the block product at
  `(r, j)` as a sum over the 256 features, the lane sum kept as a column as a sum over the 1024 columns, and then the two
  per-chunk columns (`expChunk_apply`, `hotChunk_apply`). The stored column is, by unfolding its definition, the explicit
  eight-chunk expression (`rowPay_eq`); `rowPay_apply` reads that expression at `(r, 0)`.
-/
import proofs.«116952_j83391085019210_2_alg».proof.Proof.KiBody
import proofs.«116952_j83391085019210_2_alg».proof.Proof.Spec
import proofs.«116952_j83391085019210_2_alg».proof.Proof.LibKeepdims
import Idealize.ShloMosaic.Lib.ValueIdx
import Idealize.ShloMosaic.PureOps.Ideal.Laws
import Idealize.ShloMosaic.PureOps.IdealRules

set_option maxRecDepth 16384

noncomputable section

namespace Cert.KernelIdeal.Hand

open Cert.KernelIdeal Cert.KernelIdeal.Gen Cert.NTXent
open Idealize.ShloMosaic Idealize.ShloMosaic.ValueIdx
open scoped BigOperators

/-! ## The integer side: index words -/

/-- Two 32-bit words of naturals below 2³² are equal exactly when the naturals are. -/
theorem ofNat32_inj {m n : ℕ} (hm : m < 4294967296) (hn : n < 4294967296) :
    BitVec.ofNat 32 m = BitVec.ofNat 32 n ↔ m = n := by
  constructor
  · intro h
    have := congrArg BitVec.toNat h
    simp only [BitVec.toNat_ofNat] at this
    omega
  · intro h; rw [h]

/-- A selection on the outcome of an integer equality test is an `if` on the equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · have hb : (x == y) = true := beq_iff_eq.mpr h
    rw [hb, if_pos h]; exact if_pos (by decide)
  · have hb : (x == y) = false := beq_eq_false_iff_ne.mpr h
    rw [hb, if_neg h]; exact if_neg (by decide)
/-- The row-index word: the grid coordinate times 1024 plus the row inside the tile. -/
theorem rowWord_apply (i : grid0.Coords) (t : Fin 8) (hi : (i 0).val = t.val) (r : Fin 1024) (u : Fin 1) :
    k0_pay3 i (ix2 r u) = BitVec.ofNat 32 (t.val * 1024 + r.val) := by
  unfold k0_pay3
  show IntOp.addi (Scalar.muli (BitVec.ofNat 32 (i 0).val) 1024#32) (iota .tc S1024x1 32 [0] iota_S1024x1_d0_w32 (ix2 r u)) = _
  rw [iota_single_apply, hi]
  show BitVec.ofNat 32 t.val * 1024#32 + BitVec.ofNat 32 r.val = _
  apply BitVec.eq_of_toNat_eq
  simp only [BitVec.toNat_add, BitVec.toNat_mul, BitVec.toNat_ofNat]
  have := t.isLt; have := r.isLt
  omega

/-- The column-index word of the chunk that starts at column `b`. -/
theorem colWord_apply (b : ℕ) (r j : Fin 1024) :
    addi (broadcast S1024x1024 (BitVec.ofNat 32 b)) (iota .tc S1024x1024 32 [1] iota_S1024x1024_d1_w32) (ix2 r j)
      = BitVec.ofNat 32 (b + j.val) := by
  show IntOp.addi (BitVec.ofNat 32 b) (iota .tc S1024x1024 32 [1] iota_S1024x1024_d1_w32 (ix2 r j)) = _
  rw [iota_single_apply]
  show BitVec.ofNat 32 b + BitVec.ofNat 32 j.val = _
  apply BitVec.eq_of_toNat_eq
  simp only [BitVec.toNat_add, BitVec.toNat_ofNat]
  omega

/-- The partner of row `n` as a word: `n + 4096` below 4096, `n - 4096` from there on (signed comparison; both words are
    small and non-negative). -/
theorem partner_aux (n : ℕ) (hn8 : n < 8192) :
    Scalar.select (IntOp.cmpi .slt (BitVec.ofNat 32 n) 4096#32) (IntOp.addi (BitVec.ofNat 32 n) 4096#32)
      (IntOp.subi (BitVec.ofNat 32 n) 4096#32) = BitVec.ofNat 32 (lab ⟨n, hn8⟩).val := by
  unfold lab
  by_cases h : n < 4096
  · have hs : IntOp.cmpi .slt (BitVec.ofNat 32 n) 4096#32 = 1#1 := by
      have : (BitVec.ofNat 32 n).slt 4096#32 = true := by
        simp only [BitVec.slt, BitVec.toInt_eq_toNat_cond, BitVec.toNat_ofNat, decide_eq_true_eq]
        omega
      show BitVec.ofBool ((BitVec.ofNat 32 n).slt 4096#32) = 1#1
      rw [this]; rfl
    rw [hs, select_one, dif_pos h]
    show BitVec.ofNat 32 n + 4096#32 = _
    apply BitVec.eq_of_toNat_eq
    simp only [BitVec.toNat_add, BitVec.toNat_ofNat]
    omega
  · have hs : IntOp.cmpi .slt (BitVec.ofNat 32 n) 4096#32 = 0#1 := by
      have : (BitVec.ofNat 32 n).slt 4096#32 = false := by
        simp only [BitVec.slt, BitVec.toInt_eq_toNat_cond, BitVec.toNat_ofNat, decide_eq_false_iff_not]
        omega
      show BitVec.ofBool ((BitVec.ofNat 32 n).slt 4096#32) = 0#1
      rw [this]; rfl
    rw [hs, select_zero, dif_neg h]
    show BitVec.ofNat 32 n - 4096#32 = _
    apply BitVec.eq_of_toNat_eq
    simp only [BitVec.toNat_sub, BitVec.toNat_ofNat]
    omega

/-- The partner-index word: the row index plus 4096 in the first half of the rows, minus 4096 in the second. -/
theorem partnerWord_apply (i : grid0.Coords) (t : Fin 8) (hi : (i 0).val = t.val) (r : Fin 1024) (u : Fin 1) :
    k0_pay4 i (ix2 r u) = BitVec.ofNat 32 (lab ⟨t.val * 1024 + r.val, by omega⟩).val := by
  unfold k0_pay4
  show Scalar.select (IntOp.cmpi .slt (k0_pay3 i (ix2 r u)) 4096#32)
      (IntOp.addi (k0_pay3 i (ix2 r u)) 4096#32) (IntOp.subi (k0_pay3 i (ix2 r u)) 4096#32) = _
  rw [rowWord_apply i t hi r u]
  exact partner_aux _ _

/-! ## The similarity block -/

local notation "dotQK" => dot_S1024x256_S1024x256_S1024x1024_1_1_0_0_n_n

theorem dot_lhs_0 (i : S1024x1024.Idx) (q : (dotQK).contr.Idx) : ((dotQK).lhsIdx i q 0).val = (i 0).val := by
  unfold DotDims.lhsIdx
  rw [dif_neg (show ¬(0 : Fin S1024x256.rank) ∈ (dotQK).lhsBatch by decide),
    dif_pos (show (0 : Fin S1024x256.rank) ∈ (dotQK).lhsNonContracting by decide)]
  rfl
theorem dot_lhs_1 (i : S1024x1024.Idx) (q : (dotQK).contr.Idx) : ((dotQK).lhsIdx i q 1).val = (q ⟨0, by decide⟩).val :=
  (dotQK).lhsIdx_val_of_single rfl i q
theorem dot_rhs_0 (i : S1024x1024.Idx) (q : (dotQK).contr.Idx) : ((dotQK).rhsIdx i q 0).val = (i 1).val := by
  unfold DotDims.rhsIdx
  rw [dif_neg (show ¬(0 : Fin S1024x256.rank) ∈ (dotQK).rhsBatch by decide),
    dif_pos (show (0 : Fin S1024x256.rank) ∈ (dotQK).rhsNonContracting by decide)]
  rfl
theorem dot_rhs_1 (i : S1024x1024.Idx) (q : (dotQK).contr.Idx) : ((dotQK).rhsIdx i q 1).val = (q ⟨0, by decide⟩).val :=
  (dotQK).rhsIdx_val_of_single rfl i q

/-- The block product contracting both operands' last axis, into the zero accumulator, at `(r, j)`: the inner product of
    row `r` of the left operand and row `j` of the right. -/
theorem mat_apply (a b : FVec Ideal S1024x256 .bf16) (r j : Fin 1024) :
    matmul (dotQK) none a b (constant (F := Ideal) S1024x1024 .f32 0x00000000#32) (ix2 r j)
      = ∑ k : Fin 256, a (ix2 r k) * b (ix2 j k) := by
  simp only [matmul]
  rw [Ideal.matmul_constant_zero_apply, ← Equiv.sum_comp (contrEquiv1 (dotQK) 256 rfl rfl).symm]
  refine Finset.sum_congr rfl fun k _ => ?_
  have hk := contrEquiv1_symm_val (dotQK) 256 rfl rfl k
  have el : (dotQK).lhsIdx (ix2 r j) ((contrEquiv1 (dotQK) 256 rfl rfl).symm k) = ix2 r k :=
    funext fun ax => Fin.ext (by
      match ax with
      | ⟨0, _⟩ => exact dot_lhs_0 _ _
      | ⟨1, _⟩ => exact (dot_lhs_1 _ _).trans hk)
  have er : (dotQK).rhsIdx (ix2 r j) ((contrEquiv1 (dotQK) 256 rfl rfl).symm k) = ix2 j k :=
    funext fun ax => Fin.ext (by
      match ax with
      | ⟨0, _⟩ => exact dot_rhs_0 _ _
      | ⟨1, _⟩ => exact (dot_rhs_1 _ _).trans hk)
  rw [el, er]

/-! ## One chunk's two lane sums -/

theorem logv_apply {s : Shape} (v : FVec Ideal s .f32) (i : s.Idx) : log v i = Ideal.log (v i) := rfl
theorem expv_apply {s : Shape} (v : FVec Ideal s .f32) (i : s.Idx) : exp v i = Ideal.exp (v i) := rfl

/-- The lane sum over axis 1 from the zero word, kept as a column, read at row `r`: the sum of the row. -/
theorem laneSum_apply (x : FVec Ideal S1024x1024 .f32) (hacc : (0x00000000#32 : BitVec 32) = 0x00000000#32)
    (r : Fin 1024) (u : Fin 1) :
    shapeCast S1024x1 (multiReduction (F := Ideal) .add [1] S1024 x 0x00000000#32 reduces_S1024x1024_S1024 (.inl rfl) hacc)
        shapeCasts_S1024_S1024x1 (ix2 r u)
      = ∑ j : Fin 1024, x (ix2 r j) := by
  rw [Cert.Keepdims.shapeCast_a_a1_apply]
  refine (Ideal.multiReduction_add_single x 0x00000000#32 reduces_S1024x1024_S1024 (.inl rfl) hacc (ix1 r)).trans ?_
  refine Finset.sum_congr rfl fun j _ => congrArg x ?_
  funext ax
  match ax with
  | ⟨0, _⟩ => rfl
  | ⟨1, _⟩ => rfl

/-- The similarity block of a query tile and a key chunk. -/
def simBlk (a b : FVec Ideal S1024x256 .bf16) : FVec Ideal S1024x1024 .f32 :=
  matmul (dotQK) none a b (constant (F := Ideal) S1024x1024 .f32 0x00000000#32)

/-- The column-index words of the chunk whose first column's word is `b`. -/
def colW (b : BitVec 32) : IVec S1024x1024 32 :=
  addi (broadcast S1024x1024 b) (iota .tc S1024x1024 32 [1] iota_S1024x1024_d1_w32)

/-- One chunk's column of sums of exponentials: entries whose row word equals the column word replaced by `fl`, times
    `sc`, exponentiated, summed along the row. -/
def expCol (rowW : IVec S1024x1 32) (cW : IVec S1024x1024 32) (M : FVec Ideal S1024x1024 .f32) (fl sc : Ideal .f32) :
    FVec Ideal S1024x1 .f32 :=
  shapeCast S1024x1 (multiReduction (F := Ideal) .add [1] S1024
    (exp (mulf (select (cmpi .eq (broadcastTo S1024x1024 rowW broadcasts_S1024x1_S1024x1024) cW) (broadcast S1024x1024 fl) M)
      (broadcast S1024x1024 sc))) 0x00000000#32 reduces_S1024x1024_S1024 (.inl rfl) rfl) shapeCasts_S1024_S1024x1

/-- One chunk's one-hot column: the entries whose column word equals the row's partner word, the others replaced by `z`,
    summed along the row. -/
def hotCol (cW : IVec S1024x1024 32) (pW : IVec S1024x1 32) (M : FVec Ideal S1024x1024 .f32) (z : Ideal .f32) :
    FVec Ideal S1024x1 .f32 :=
  shapeCast S1024x1 (multiReduction (F := Ideal) .add [1] S1024
    (select (cmpi .eq cW (broadcastTo S1024x1024 pW broadcasts_S1024x1_S1024x1024)) M (broadcast S1024x1024 z))
    0x00000000#32 reduces_S1024x1024_S1024 (.inl rfl) rfl) shapeCasts_S1024_S1024x1

theorem expCol_apply (rowW : IVec S1024x1 32) (cW : IVec S1024x1024 32) (M : FVec Ideal S1024x1024 .f32) (fl sc : Ideal .f32)
    (r : Fin 1024) (u : Fin 1) :
    expCol rowW cW M fl sc (ix2 r u)
      = ∑ j : Fin 1024, Ideal.exp ((if rowW (ix2 r (0 : Fin 1)) = cW (ix2 r j) then fl else M (ix2 r j)) * sc) := by
  unfold expCol
  refine (laneSum_apply _ rfl r u).trans ?_
  refine Finset.sum_congr rfl fun j _ => ?_
  show Ideal.exp (Scalar.select (IntOp.cmpi .eq (broadcastTo S1024x1024 rowW broadcasts_S1024x1_S1024x1024 (ix2 r j)) (cW (ix2 r j)))
      fl (M (ix2 r j)) * sc) = _
  rw [Cert.Keepdims.broadcastTo_a1_ab_apply, select_cmpi_eq]

theorem hotCol_apply (cW : IVec S1024x1024 32) (pW : IVec S1024x1 32) (M : FVec Ideal S1024x1024 .f32) (z : Ideal .f32)
    (r : Fin 1024) (u : Fin 1) :
    hotCol cW pW M z (ix2 r u)
      = ∑ j : Fin 1024, if cW (ix2 r j) = pW (ix2 r (0 : Fin 1)) then M (ix2 r j) else z := by
  unfold hotCol
  refine (laneSum_apply _ rfl r u).trans ?_
  refine Finset.sum_congr rfl fun j _ => ?_
  show Scalar.select (IntOp.cmpi .eq (cW (ix2 r j)) (broadcastTo S1024x1024 pW broadcasts_S1024x1_S1024x1024 (ix2 r j)))
      (M (ix2 r j)) z = _
  rw [Cert.Keepdims.broadcastTo_a1_ab_apply, select_cmpi_eq]

/-! ## The constants -/

/-- The named scale is the exact reciprocal of the temperature. -/
theorem scale_named : Named.named (F := Ideal) κ "inv_temperature" (φ := .f32) 0x41649249#32 = scale :=
  IdealRules.named_const.ideal_named_scalar _ _ _ _ rfl

theorem fill_word : (Scalar.ofBits (F := Ideal) .f32 0xD9FFCB9E#32 : Ideal .f32) = fill := rfl

theorem zero_word : (Scalar.ofBits (F := Ideal) .f32 0x00000000#32 : Ideal .f32) = 0 := Ideal.ofBits_zero_f32

/-! ## One chunk, in the rows of the normalized matrix -/

/-- The similarity block of the query tile `t` and the key chunk `c`, at `(r, j)`: the similarity of rows
    `1024 t + r` and `1024 c + j`. -/
theorem simBlk_apply (Z : Fin 8192 → Fin 256 → EReal) (t : Fin 8) (a : FVec Ideal S1024x256 .bf16)
    (ha : ∀ (r : Fin 1024) (k : Fin 256), a (ix2 r k) = Z ⟨t.val * 1024 + r.val, by omega⟩ k)
    (c : Fin 8) (b : FVec Ideal S1024x256 .bf16) (hb : ∀ (j : Fin 1024) (k : Fin 256), b (ix2 j k) = Z (col c j) k)
    (r j : Fin 1024) :
    simBlk a b (ix2 r j) = sim Z ⟨t.val * 1024 + r.val, by omega⟩ (col c j) := by
  unfold simBlk sim
  rw [mat_apply]
  exact Finset.sum_congr rfl fun k _ => by rw [ha, hb]

/-- One chunk's sum of exponentials at row `r` of tile `t`. -/
theorem expChunk_apply (Z : Fin 8192 → Fin 256 → EReal) (i : grid0.Coords) (t : Fin 8) (hi : (i 0).val = t.val)
    (a : FVec Ideal S1024x256 .bf16)
    (ha : ∀ (r : Fin 1024) (k : Fin 256), a (ix2 r k) = Z ⟨t.val * 1024 + r.val, by omega⟩ k)
    (c : Fin 8) (n : ℕ) (hn : n = c.val * 1024) (b : FVec Ideal S1024x256 .bf16)
    (hb : ∀ (j : Fin 1024) (k : Fin 256), b (ix2 j k) = Z (col c j) k) (r : Fin 1024) (u : Fin 1) :
    expCol (k0_pay3 i) (colW (BitVec.ofNat 32 n)) (simBlk a b) (Scalar.ofBits (F := Ideal) .f32 0xD9FFCB9E#32)
        (Named.named (F := Ideal) κ "inv_temperature" (φ := .f32) 0x41649249#32) (ix2 r u)
      = ∑ j : Fin 1024, Ideal.exp (masked Z ⟨t.val * 1024 + r.val, by omega⟩ (col c j) * scale) := by
  rw [expCol_apply]
  refine Finset.sum_congr rfl fun j _ => ?_
  have ht := t.isLt; have hr := r.isLt; have hc := c.isLt; have hj := j.isLt
  have hcond : (BitVec.ofNat 32 (t.val * 1024 + r.val) = BitVec.ofNat 32 (n + j.val))
      ↔ ((⟨t.val * 1024 + r.val, by omega⟩ : Fin 8192) = col c j) := by
    rw [ofNat32_inj (by omega) (by omega), Fin.ext_iff]
    show _ ↔ t.val * 1024 + r.val = c.val * 1024 + j.val
    rw [hn]
  rw [rowWord_apply i t hi r 0, show colW (BitVec.ofNat 32 n) (ix2 r j) = BitVec.ofNat 32 (n + j.val) from colWord_apply n r j,
    simBlk_apply Z t a ha c b hb r j, scale_named, fill_word]
  unfold masked
  simp only [hcond]

/-- One chunk's partner pick at row `r` of tile `t`. -/
theorem hotChunk_apply (Z : Fin 8192 → Fin 256 → EReal) (i : grid0.Coords) (t : Fin 8) (hi : (i 0).val = t.val)
    (a : FVec Ideal S1024x256 .bf16)
    (ha : ∀ (r : Fin 1024) (k : Fin 256), a (ix2 r k) = Z ⟨t.val * 1024 + r.val, by omega⟩ k)
    (c : Fin 8) (n : ℕ) (hn : n = c.val * 1024) (b : FVec Ideal S1024x256 .bf16)
    (hb : ∀ (j : Fin 1024) (k : Fin 256), b (ix2 j k) = Z (col c j) k) (r : Fin 1024) (u : Fin 1) :
    hotCol (colW (BitVec.ofNat 32 n)) (k0_pay4 i) (simBlk a b) (Scalar.ofBits (F := Ideal) .f32 0x00000000#32) (ix2 r u)
      = ∑ j : Fin 1024, if col c j = lab ⟨t.val * 1024 + r.val, by omega⟩
          then sim Z ⟨t.val * 1024 + r.val, by omega⟩ (col c j) else 0 := by
  rw [hotCol_apply]
  refine Finset.sum_congr rfl fun j _ => ?_
  have ht := t.isLt; have hr := r.isLt; have hc := c.isLt; have hj := j.isLt
  have hl := (lab ⟨t.val * 1024 + r.val, by omega⟩).isLt
  have hcond : (BitVec.ofNat 32 (n + j.val) = BitVec.ofNat 32 (lab ⟨t.val * 1024 + r.val, by omega⟩).val)
      ↔ (col c j = lab ⟨t.val * 1024 + r.val, by omega⟩) := by
    rw [ofNat32_inj (by omega) (by omega), Fin.ext_iff]
    show _ ↔ c.val * 1024 + j.val = _
    rw [hn]
  rw [partnerWord_apply i t hi r 0, show colW (BitVec.ofNat 32 n) (ix2 r j) = BitVec.ofNat 32 (n + j.val) from colWord_apply n r j,
    simBlk_apply Z t a ha c b hb r j, zero_word]
  simp only [hcond]

/-! ## The stored column -/

/-- A key chunk as the block product takes it. -/
def kcast (k : Vec Ideal S1024x256 .bf16) : FVec Ideal S1024x256 .bf16 :=
  shapeCast S1024x256 k shapeCasts_S1024x256_S1024x256

/-- The column of sums of exponentials of the chunk whose first column's word is `w`. -/
def Ecol (i : grid0.Coords) (q k : Vec Ideal S1024x256 .bf16) (w : BitVec 32) : FVec Ideal S1024x1 .f32 :=
  expCol (k0_pay3 i) (colW w) (simBlk (k0_pay2 q) (kcast k)) (Scalar.ofBits (F := Ideal) .f32 0xD9FFCB9E#32)
    (Named.named (F := Ideal) κ "inv_temperature" (φ := .f32) 0x41649249#32)

/-- The one-hot column of the chunk whose first column's word is `w`. -/
def Hcol (i : grid0.Coords) (q k : Vec Ideal S1024x256 .bf16) (w : BitVec 32) : FVec Ideal S1024x1 .f32 :=
  hotCol (colW w) (k0_pay4 i) (simBlk (k0_pay2 q) (kcast k)) (Scalar.ofBits (F := Ideal) .f32 0x00000000#32)

/-- The scale as a column. -/
def sB : FVec Ideal S1024x1 .f32 :=
  broadcast S1024x1 (Named.named (F := Ideal) κ "inv_temperature" (φ := .f32) 0x41649249#32)

/-- The zero column both running sums start from. -/
def zB : FVec Ideal S1024x1 .f32 := broadcast S1024x1 (Scalar.ofBits (F := Ideal) .f32 0x00000000#32)

set_option maxRecDepth 65536 in
/-- The stored column, chunk by chunk: the logarithm of the running sum of the eight columns of sums of exponentials, less
    the running sum of the eight scaled one-hot columns. By unfolding the payloads. -/
theorem rowPay_eq (i : grid0.Coords) (q k0 k1 k2 k3 k4 k5 k6 k7 : Vec Ideal S1024x256 .bf16) :
    rowPay (F := Ideal) i q k0 k1 k2 k3 k4 k5 k6 k7
      = subf (log (addf (addf (addf (addf (addf (addf (addf (addf zB (Ecol i q k0 0#32)) (Ecol i q k1 1024#32)) (Ecol i q k2 2048#32))
            (Ecol i q k3 3072#32)) (Ecol i q k4 4096#32)) (Ecol i q k5 5120#32)) (Ecol i q k6 6144#32)) (Ecol i q k7 7168#32)))
          (addf (addf (addf (addf (addf (addf (addf (addf zB (mulf (Hcol i q k0 0#32) sB)) (mulf (Hcol i q k1 1024#32) sB))
            (mulf (Hcol i q k2 2048#32) sB)) (mulf (Hcol i q k3 3072#32) sB)) (mulf (Hcol i q k4 4096#32) sB))
            (mulf (Hcol i q k5 5120#32) sB)) (mulf (Hcol i q k6 6144#32) sB)) (mulf (Hcol i q k7 7168#32) sB)) := rfl

theorem rowPay_apply (Z : Fin 8192 → Fin 256 → EReal) (i : grid0.Coords) (t : Fin 8) (hi : (i 0).val = t.val)
    (q k0 k1 k2 k3 k4 k5 k6 k7 : Vec Ideal S1024x256 .bf16)
    (hq : ∀ (r : Fin 1024) (k : Fin 256), q (ix2 r k) = Z ⟨t.val * 1024 + r.val, by omega⟩ k)
    (h0 : ∀ (j : Fin 1024) (k : Fin 256), k0 (ix2 j k) = Z (col 0 j) k)
    (h1 : ∀ (j : Fin 1024) (k : Fin 256), k1 (ix2 j k) = Z (col 1 j) k)
    (h2 : ∀ (j : Fin 1024) (k : Fin 256), k2 (ix2 j k) = Z (col 2 j) k)
    (h3 : ∀ (j : Fin 1024) (k : Fin 256), k3 (ix2 j k) = Z (col 3 j) k)
    (h4 : ∀ (j : Fin 1024) (k : Fin 256), k4 (ix2 j k) = Z (col 4 j) k)
    (h5 : ∀ (j : Fin 1024) (k : Fin 256), k5 (ix2 j k) = Z (col 5 j) k)
    (h6 : ∀ (j : Fin 1024) (k : Fin 256), k6 (ix2 j k) = Z (col 6 j) k)
    (h7 : ∀ (j : Fin 1024) (k : Fin 256), k7 (ix2 j k) = Z (col 7 j) k)
    (r : Fin 1024) :
    rowPay (F := Ideal) i q k0 k1 k2 k3 k4 k5 k6 k7 (ix2 r (0 : Fin 1)) = rowK Z ⟨t.val * 1024 + r.val, by omega⟩ := by
  have hv : ∀ (r : Fin 1024) (k : Fin 256), k0_pay2 (F := Ideal) q (ix2 r k) = Z ⟨t.val * 1024 + r.val, by omega⟩ k := by
    intro r k; unfold k0_pay2; rw [shapeCast_self]; exact hq r k
  have hk : ∀ (c : Fin 8) (kk : Vec Ideal S1024x256 .bf16), (∀ (j : Fin 1024) (k : Fin 256), kk (ix2 j k) = Z (col c j) k) →
      ∀ (j : Fin 1024) (k : Fin 256), kcast kk (ix2 j k) = Z (col c j) k := by
    intro c kk h j k; unfold kcast; rw [shapeCast_self]; exact h j k
  have hE : ∀ (c : Fin 8) (n : ℕ) (hn : n = c.val * 1024) (kk : Vec Ideal S1024x256 .bf16)
      (h : ∀ (j : Fin 1024) (k : Fin 256), kk (ix2 j k) = Z (col c j) k),
      Ecol i q kk (BitVec.ofNat 32 n) (ix2 r (0 : Fin 1))
        = ∑ j : Fin 1024, Ideal.exp (masked Z ⟨t.val * 1024 + r.val, by omega⟩ (col c j) * scale) :=
    fun c n hn kk h => expChunk_apply Z i t hi _ hv c n hn _ (hk c kk h) r 0
  have hH : ∀ (c : Fin 8) (n : ℕ) (hn : n = c.val * 1024) (kk : Vec Ideal S1024x256 .bf16)
      (h : ∀ (j : Fin 1024) (k : Fin 256), kk (ix2 j k) = Z (col c j) k),
      Hcol i q kk (BitVec.ofNat 32 n) (ix2 r (0 : Fin 1))
        = ∑ j : Fin 1024, if col c j = lab ⟨t.val * 1024 + r.val, by omega⟩
            then sim Z ⟨t.val * 1024 + r.val, by omega⟩ (col c j) else 0 :=
    fun c n hn kk h => hotChunk_apply Z i t hi _ hv c n hn _ (hk c kk h) r 0
  rw [rowPay_eq]
  simp only [subf_apply, addf_apply, mulf_apply, logv_apply]
  rw [hE 0 0 rfl k0 h0, hE 1 1024 rfl k1 h1, hE 2 2048 rfl k2 h2, hE 3 3072 rfl k3 h3, hE 4 4096 rfl k4 h4,
    hE 5 5120 rfl k5 h5, hE 6 6144 rfl k6 h6, hE 7 7168 rfl k7 h7,
    hH 0 0 rfl k0 h0, hH 1 1024 rfl k1 h1, hH 2 2048 rfl k2 h2, hH 3 3072 rfl k3 h3, hH 4 4096 rfl k4 h4,
    hH 5 5120 rfl k5 h5, hH 6 6144 rfl k6 h6, hH 7 7168 rfl k7 h7]
  have hz : zB (ix2 r (0 : Fin 1)) = 0 := zero_word
  have hs : sB (ix2 r (0 : Fin 1)) = scale := scale_named
  rw [hz, hs, zero_add, zero_add]
  unfold rowK
  rw [Fin.sum_univ_eight, Fin.sum_univ_eight]

end Cert.KernelIdeal.Hand

end
-- ==== Proof.Zn.lean ====
/-
  The normalized rows as both programs compute them.

  Both programs stack the two inputs, take each row's Euclidean norm (the square root of the sum of squares), clamp it
  from below by 10⁻⁸, and divide the row by it. `znArr` is that chain as one array-valued function of the two inputs,
  and `Zof` reads it at a row and a feature.
-/
import proofs.«116952_j83391085019210_2_alg».proof.Proof.Gen.ReferenceIdeal
import Idealize.ShloMosaic.Lib.ValueIdx
import proofs.«116952_j83391085019210_2_alg».proof.Proof.Spec

noncomputable section

namespace Cert.NTXent

open Idealize.ShloMosaic Idealize.ShloMosaic.ValueIdx
open Cert.ReferenceIdeal Cert.ReferenceIdeal.Gen

/-- The two inputs stacked: 8192 rows. -/
def zcat (a b : FVec Ideal S4096x256 .f32) : FVec Ideal S8192x256 .f32 :=
  concatenate S8192x256 0 [⟨S4096x256, a⟩, ⟨S4096x256, b⟩] concatenates_S4096x256_S4096x256_S8192x256_d0

/-- Each row's norm, clamped from below by 10⁻⁸, as a column. -/
def znorm (z : FVec Ideal S8192x256 .f32) : FVec Ideal S8192x1 .f32 :=
  maximumf (F := Ideal)
    (Host.sqrt (F := Ideal) (broadcastInDim S8192x1 ![0] bcast_S8192_S8192x1_0
      (Host.reduceAdd (F := Ideal) (mulf (F := Ideal) z z) (constant (F := Ideal) S_ .f32 0x00000000#32) reducesTo_S8192x256_S8192_d1 h_S_)))
    (broadcastInDim S8192x1 ![] bcast_S_S8192x1 (constant (F := Ideal) S_ .f32 0x322BCC77#32))

/-- The stacked rows, each divided by its clamped norm. -/
def znArr (a b : FVec Ideal S4096x256 .f32) : FVec Ideal S8192x256 .f32 :=
  Host.divf (F := Ideal) (zcat a b) (broadcastInDim S8192x256 ![0, 1] bcast_S8192x1_S8192x256_0_1 (znorm (zcat a b)))

/-- Entry `k` of normalized row `i`. -/
def Zof (a b : FVec Ideal S4096x256 .f32) : Fin 8192 → Fin 256 → EReal := fun i k => znArr a b (ix2 i k)

end Cert.NTXent

end
-- ==== Proof.KiHost.lean ====
/-
  The two host-side reads on the kernel's side.

  Before its region the kernel's program stacks the two inputs, takes each row's norm, clamps it from below, divides
  the rows by it and changes the float format of the quotient; over exact arithmetic the change of format is the
  identity, so what the region finds is the normalized matrix. After its region the program sums the column of results
  from zero and divides by the row count: whatever the region leaves there, the return is that column's mean.
-/
import proofs.«116952_j83391085019210_2_alg».proof.Proof.KiRun
import proofs.«116952_j83391085019210_2_alg».proof.Proof.Zn
import Idealize.ShloMosaic.Lib.IdealHost

set_option maxRecDepth 16384

noncomputable section

namespace Cert.KernelIdeal.Hand

open Cert.KernelIdeal Cert.KernelIdeal.Gen
open Idealize.ShloMosaic Idealize.ShloMosaic.ValueIdx Idealize.ShloMosaic.TcCoe
open scoped BigOperators

/-- the region finds the normalized matrix in main_v6 (the change of float format is the identity at Ideal) -/
theorem V3_v6 (m : (ℓ : Loc nD τ sig) → Buf (Elt Ideal) ℓ) (ρ : Dev nD → PrngReg) (c : Dev nD) :
    (V3 (F := Ideal) m ρ c main_v6 : S8192x256.Idx → EReal)
      = Cert.NTXent.znArr (m ((c : Thread nD τ).loc main_arg0)) (m ((c : Thread nD τ).loc main_arg1)) := by
  show StableHlo.after hostOps0_2 (StableHlo.after hostOps0_1 (StableHlo.after hostOps0 (W0 m ρ c)))
    (Proc.devRef .tc main_v6) = _
  after_results
  rfl

/-- the tail: the mean of the result column, whatever the region left in main_v7 -/
theorem W5_v9 (m : (ℓ : Loc nD τ sig) → Buf (Elt Ideal) ℓ) (ρ : Dev nD → PrngReg) (c : Dev nD)
    (G : S8192x1.Idx → EReal) (hG : W4 (F := Ideal) m ρ c (Proc.devRef .tc main_v7) = G) :
    W5 (F := Ideal) m ρ c (Proc.devRef .tc main_v9)
      = fun _ => Ideal.div (∑ i : Fin 8192, G (ix2 i (0 : Fin 1))) Cert.NTXent.rows := by
  show StableHlo.after hostOps1 (W4 m ρ c) (Proc.devRef .tc main_v9) = _
  after_results
  rw [hG]
  funext j
  rw [hostDivf_apply, hostReduceAdd_apply, constant_apply, constant_apply, Ideal.ofBits_zero_f32,
    Ideal.hostReduceAdd_total _ (fun b => b.elim0), zero_add, sum_idx2 (n0 := 8192) (n1 := 1) G]
  simp only [Fin.sum_univ_one]
  rfl

end Cert.KernelIdeal.Hand

end
-- ==== Proof.KiValue.lean ====
/-
  What the idealized kernel returns: the chunked arrangement of the loss over the normalized rows.

  At grid point `t` the body stores, for each of the tile's 1024 rows `r`, the loss row `rowK Z (1024 t + r)` of the
  normalized rows `Z` the region found in the matrix's buffer; the write-back puts that column at rows
  1024 t … 1024 t + 1023 of the result's buffer; the eight points' blocks tile the 8192 rows, so the buffer ends holding
  `rowK Z` at every row; and the last host stretch takes the mean. So @main returns `lossK Z`.
-/
import proofs.«116952_j83391085019210_2_alg».proof.Proof.KiFrame
import proofs.«116952_j83391085019210_2_alg».proof.Proof.KiBlocks
import proofs.«116952_j83391085019210_2_alg».proof.Proof.KiPayload
import proofs.«116952_j83391085019210_2_alg».proof.Proof.KiHost
import proofs.«116952_j83391085019210_2_alg».proof.Proof.Zn

set_option maxRecDepth 16384

noncomputable section

namespace Cert.KernelIdeal.Hand

open Cert.KernelIdeal Cert.KernelIdeal.Gen Cert.NTXent
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The normalized rows of core `c`'s inputs. -/
abbrev Zm (c : Dev nD) : Fin 8192 → Fin 256 → EReal :=
  Zof (m ((c : Thread nD τ).loc main_arg0)) (m ((c : Thread nD τ).loc main_arg1))

/-- The result column as one function of its row. -/
def Gcol (Z : Fin 8192 → Fin 256 → EReal) : S8192x1.Idx → EReal := fun y => rowK Z ⟨(y 0).val, idx2_lt0 y⟩

/-- The matrix the region finds, at a row and a feature, is the normalized row's entry. -/
theorem v6_apply (c : Dev nD) (i : Fin 8192) (k : Fin 256) :
    (V3 (F := Ideal) m ρ c main_v6 : S8192x256.Idx → EReal) (ix2 i k) = Zm m c i k := by
  rw [V3_v6]
  rfl

/-- WHAT POINT `t` WRITES BACK is block `t` of the result column. -/
theorem flushed_eq (c : Dev nD) (t : Fin cfg0.N) :
    (dat (V3 (F := Ideal) m ρ) c).flushed 2 t = ((cfg0.win 2).blk t).view.read (Elt Ideal) (Gcol (Zm m c)) := by
  show (cfg0.win 2).cut (grid0.coords t) ((dat (V3 (F := Ideal) m ρ) c).after 2 t) = _
  rw [after_2]
  unfold out2
  rw [View.canon_unit_zero (S := S1024x1) hz]
  obtain ⟨-, -, -, -, e4, e5⟩ := idx_facts t
  have ht : t.val < 8 := by have h := t.isLt; have hN : cfg0.N = 8 := N_0; omega
  funext j
  obtain ⟨r, u, rfl⟩ : ∃ (r : Fin 1024) (u : Fin 1), j = ix2 r u := ⟨j 0, j 1, eq_ix2 j⟩
  obtain rfl : u = 0 := Subsingleton.elim _ _
  refine (rowPay_apply (Zm m c) (grid0.coords t) ⟨t.val, ht⟩ (coords_val t) _ _ _ _ _ _ _ _ _ ?_ ?_ ?_ ?_ ?_ ?_ ?_ ?_ ?_ r).trans ?_
  · intro r k
    exact (tile_read (V3 (F := Ideal) m ρ) c t r k (by have := r.isLt; omega)).trans (v6_apply m ρ c _ k)
  · intro j k
    refine (chunk_read (V3 (F := Ideal) m ρ) c t 0 _ j k (by have := j.isLt; omega)).trans ((v6_apply m ρ c _ k).trans ?_)
    exact congrArg (fun i => Zm m c i k) (Fin.ext (by simp [col]))
  · intro j k
    refine (chunk_read (V3 (F := Ideal) m ρ) c t 1024 _ j k (by have := j.isLt; omega)).trans ((v6_apply m ρ c _ k).trans ?_)
    exact congrArg (fun i => Zm m c i k) (Fin.ext (by simp [col]))
  · intro j k
    refine (chunk_read (V3 (F := Ideal) m ρ) c t 2048 _ j k (by have := j.isLt; omega)).trans ((v6_apply m ρ c _ k).trans ?_)
    exact congrArg (fun i => Zm m c i k) (Fin.ext (by simp [col]))
  · intro j k
    refine (chunk_read (V3 (F := Ideal) m ρ) c t 3072 _ j k (by have := j.isLt; omega)).trans ((v6_apply m ρ c _ k).trans ?_)
    exact congrArg (fun i => Zm m c i k) (Fin.ext (by simp [col]))
  · intro j k
    refine (chunk_read (V3 (F := Ideal) m ρ) c t 4096 _ j k (by have := j.isLt; omega)).trans ((v6_apply m ρ c _ k).trans ?_)
    exact congrArg (fun i => Zm m c i k) (Fin.ext (by simp [col]))
  · intro j k
    refine (chunk_read (V3 (F := Ideal) m ρ) c t 5120 _ j k (by have := j.isLt; omega)).trans ((v6_apply m ρ c _ k).trans ?_)
    exact congrArg (fun i => Zm m c i k) (Fin.ext (by simp [col]))
  · intro j k
    refine (chunk_read (V3 (F := Ideal) m ρ) c t 6144 _ j k (by have := j.isLt; omega)).trans ((v6_apply m ρ c _ k).trans ?_)
    exact congrArg (fun i => Zm m c i k) (Fin.ext (by simp [col]))
  · intro j k
    refine (chunk_read (V3 (F := Ideal) m ρ) c t 7168 _ j k (by have := j.isLt; omega)).trans ((v6_apply m ρ c _ k).trans ?_)
    exact congrArg (fun i => Zm m c i k) (Fin.ext (by simp [col]))
  · show _ = Gcol (Zm m c) (((cfg0.win 2).blk t).view.emb (ix2 r 0))
    unfold Gcol
    refine congrArg (rowK (Zm m c)) (Fin.ext ?_)
    show t.val * 1024 + r.val = win0_2.index t (0 : Fin 2) * 1024 + 1 * r.val
    omega

/-- An index of the result's buffer is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v7).slice (win0_2.rect t)).set ↔ _
  rw [View.set_slice_whole, Rect.mem_set_unit]
  exact Iff.rfl

/-- Every row is in the block of the point that is its quotient by 1024. -/
theorem covered (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 8 := N_0
  let t : Fin cfg0.N := ⟨(i 0).val / 1024, by rw [hN]; omega⟩
  obtain ⟨-, -, -, -, e4, e5⟩ := idx_facts t
  have e4' : win0_2.index t (0 : Fin 2) = (i 0).val / 1024 := e4
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- THE RESULT'S BUFFER after the region: the loss row at every row. -/
theorem final (c : Dev nD) : (dat (V3 (F := Ideal) m ρ) c).arrAt 2 cfg0.N = Gcol (Zm m c) :=
  (dat (V3 (F := Ideal) m ρ) c).arrAt_eq_of_cover 2 (Gcol (Zm m c)) (fun t _ => flushed_eq m ρ c t) covered

/-- WHAT @main RETURNS: the mean of the loss rows. -/
theorem value (c : Dev nD) : W5 (F := Ideal) m ρ c (Proc.devRef .tc main_v9) = fun _ => lossK (Zm m c) := by
  rw [W5_v9 m ρ c (Gcol (Zm m c)) ((W4_v7 m ρ c).trans (final m ρ c))]
  rfl

/-- THE RUN, read: every weakly fair execution of @main terminates, nothing faulting, with the result at the chunked
    arrangement of the loss of the normalized rows, and both inputs as launched. -/
theorem run_value : θ_run defs (onTc (τ := τ) (main (F := Ideal))) ⟨m, fun _ => 0, ρ⟩ (fun r => ∀ c : Dev nD,
      r.2.mem ((c.tc : Thread nD τ).loc main_v9) = (fun _ => lossK (Zm m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v9 (by decide))).trans (value m ρ c),
     (h c _ (mem_uc main_arg0 (by decide))).trans (keep_arg0 m ρ c),
     (h c _ (mem_uc main_arg1 (by decide))).trans (keep_arg1 m ρ c)⟩) (run_main m ρ)

end Cert.KernelIdeal.Hand

end
-- ==== Proof.RefStages.lean ====
/-
  The reference program's five groups of operations, each as a function of what it reads.

  The reference normalises the stacked rows, forms the logits (the rows' inner products, the diagonal replaced by the
  fill, divided by the temperature), builds the partner labels, takes each row's log-softmax (shifted by the row's
  running maximum), reads it at the partner label and returns the negated mean. The definitions below are those groups
  but the first (which is `Cert.NTXent.znArr`), spelt with the program's own operations.
-/
import proofs.«116952_j83391085019210_2_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The logits: the rows' inner products, the diagonal replaced by the fill, over the temperature. -/
def logitsArr (zn : FVec Ideal S8192x256 .f32) : FVec Ideal S8192x8192 .f32 :=
  Host.divf (select (cmpi .eq (addi (iotaInDim S8192x8192 32 0) (broadcastInDim S8192x8192 ![] bcast_S_S8192x8192 (constantI S_ 32 0#32))) (iotaInDim S8192x8192 32 1)) (broadcastInDim S8192x8192 ![] bcast_S_S8192x8192 (id (constant (F := Ideal) S_ .f32 0xD9FFCB9E#32))) (Host.dotGeneral dot_S8192x256_S256x8192_S8192x8192_1_0_0_1_n_n none zn (transpose S256x8192 [1, 0] zn transposes_S8192x256_S256x8192_1_0))) (broadcastInDim S8192x8192 ![] bcast_S_S8192x8192 (constant (F := Ideal) S_ .f32 0x3D8F5C29#32))

/-- The partner labels: 4096 + i on the first half, i on the second, as 32-bit words. -/
def labelsArr : IVec S8192 32 :=
  concatenate S8192 0 [⟨S4096, (addi (broadcastInDim S4096 ![] bcast_S_S4096 (constantI S_ 32 4096#32)) (iotaInDim S4096 32 0))⟩, ⟨S4096, (iotaInDim S4096 32 0)⟩] concatenates_S4096_S4096_S8192_d0

/-- Each row's running maximum: the maximum of -∞ and the fold of the maximum from -∞ over the row. -/
def rowMaxArr (L : FVec Ideal S8192x8192 .f32) : FVec Ideal S8192 .f32 :=
  maximumf (broadcastInDim S8192 ![] bcast_S_S8192 (constant (F := Ideal) S_ .f32 0xFF800000#32)) (Host.reduce FloatOps.maximumf L (constant (F := Ideal) S_ .f32 0xFF800000#32) reducesTo_S8192x8192_S8192_d1 h_S_)

/-- The logits less their row's running maximum. -/
def shiftedArr (L : FVec Ideal S8192x8192 .f32) : FVec Ideal S8192x8192 .f32 :=
  subf L (broadcastInDim S8192x8192 ![0, 1] bcast_S8192x1_S8192x8192_0_1 (broadcastInDim S8192x1 ![0] bcast_S8192_S8192x1_0 (rowMaxArr L)))

/-- The log-softmax of each row: the shifted logits less the logarithm of the sum of their exponentials. -/
def lsmArr (L : FVec Ideal S8192x8192 .f32) : FVec Ideal S8192x8192 .f32 :=
  subf (shiftedArr L) (broadcastInDim S8192x8192 ![0, 1] bcast_S8192x1_S8192x8192_0_1 (Host.log (broadcastInDim S8192x1 ![0] bcast_S8192_S8192x1_0 (Host.reduceAdd (Host.exp (shiftedArr L)) (constant (F := Ideal) S_ .f32 0x00000000#32) reducesTo_S8192x8192_S8192_d1 h_S_))))

/-- The labels as a column. -/
def labColArr (lb : IVec S8192 32) : IVec S8192x1 32 :=
  broadcastInDim S8192x1 ![0] bcast_S8192_S8192x1_0 lb

/-- The start indices of the read, from the column of labels: a negative label wrapped by 8192, as an
    8192 × 1 × 1 array. -/
def idxArr (lc : IVec S8192x1 32) : IVec S8192x1x1 32 :=
  shapeCast _ (select (cmpi .slt lc (broadcastInDim S8192x1 ![] bcast_S_S8192x1 (constantI S_ 32 0#32))) (addi lc (broadcastInDim S8192x1 ![] bcast_S_S8192x1 (constantI S_ 32 8192#32))) lc) shapeCasts_S8192x1_S8192x1x1

/-- Whether each start index is in range: between 0 and 8191. -/
def okArr (lc : IVec S8192x1 32) : IVec S8192x1 1 :=
  Host.reduce IntOp.andi (andi (cmpi .sge (idxArr lc) (broadcastInDim S8192x1x1 ![] bcast_S_S8192x1x1 (constantI S_ 32 0#32))) (cmpi .sle (idxArr lc) (broadcastInDim S8192x1x1 ![0, 1, 2] bcast_S1x1x1_S8192x1x1_0_1_2 (broadcastInDim S1x1x1 ![2] bcast_S1_S1x1x1_2 (constantI S1 32 8191#32))))) (constantI S_ 1 1#1) reducesTo_S8192x1x1_S8192x1_d2 h_S_

/-- Each row read at its label (the labels as a column): the gathered entry where the label is in range, a NaN where it is not. -/
def pickArr (P : FVec Ideal S8192x8192 .f32) (lc : IVec S8192x1 32) : FVec Ideal S8192x1 .f32 :=
  select (okArr lc) (Host.gather gather_S8192x8192_S8192x1x1_S8192x1_n_1_0_0_1_2_11 P (idxArr lc)) (broadcastInDim S8192x1 ![] bcast_S_S8192x1 (constant (F := Ideal) S_ .f32 0x7FC00000#32))

/-- The negated mean of a column of 8192 entries. -/
def finalArr (v : FVec Ideal S8192x1 .f32) : FVec Ideal S_ .f32 :=
  Host.negf (Host.divf (Host.reduceAdd v (constant (F := Ideal) S_ .f32 0x00000000#32) reducesTo_S8192x1_S_d0_1 h_S_) (constant (F := Ideal) S_ .f32 0x46000000#32))

end Cert.ReferenceIdeal.Hand

end
-- ==== Proof.RefMean.lean ====
/-
  The reference's last group of operations: the negated mean of the column of per-row results.
-/
import proofs.«116952_j83391085019210_2_alg».proof.Proof.RefRunP
import proofs.«116952_j83391085019210_2_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP

set_option maxRecDepth 8192 in
set_option maxHeartbeats 800000 in
/-- The last five operations (the zero, the column's sum, the row count, the quotient, the negation), over any
    contents: the negated mean of what the result column holds. -/
theorem seg_mean (W : Valuation τ sig (Elt Ideal)) :
    after (List.drop 70 (ValueP.ops (F := Ideal))) W (Proc.devRef .tc main_v26) = finalArr (W (Proc.devRef .tc main_v23)) := by
  simp only [ValueP.ops, List.drop_succ_cons, List.drop_zero]
  after_results_simp
  unfold finalArr
  rfl

set_option maxRecDepth 8192 in
set_option maxHeartbeats 800000 in
/-- The last four operations alone read the sum's initial value from the contents: over contents that hold the zero
    there, the same. -/
theorem seg_mean71 (W : Valuation τ sig (Elt Ideal))
    (h3 : W (Proc.devRef .tc main_cst_3) = constant (F := Ideal) S_ .f32 0x00000000#32) :
    after (List.drop 71 (ValueP.ops (F := Ideal))) W (Proc.devRef .tc main_v26) = finalArr (W (Proc.devRef .tc main_v23)) := by
  simp only [ValueP.ops, List.drop_succ_cons, List.drop_zero]
  after_results_simp
  rw [h3]
  unfold finalArr
  rfl

end Cert.ReferenceIdeal.Hand

end
-- ==== Proof.RefOpen.lean ====
/-
  The reference program's result, opened.

  The result buffer's contents after the reference's 75 operations is the fold of the operations over the launch
  contents. The operations fall into consecutive groups: the normalisation of the stacked rows, the logits, the partner
  labels, the log-softmax of each row, the labels as a column, the read at the labels, and the negated mean. Each group
  is read off the fold on its own (the fold of a line cut in two is the fold of the second part over the fold of the
  first), so no step compares more than one group's worth of operations. A called function's operations carry their
  operands and results through a transport along an equation between two spellings of one array type; the transports
  are removed (they cancel in pairs, and a lone one is the identity) before a group is compared with its definition.
-/
import proofs.«116952_j83391085019210_2_alg».proof.Proof.RefRunP
import proofs.«116952_j83391085019210_2_alg».proof.Proof.RefStages
import proofs.«116952_j83391085019210_2_alg».proof.Proof.Zn
import proofs.«116952_j83391085019210_2_alg».proof.Proof.RefMean

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP

/-- The fold of a line of operations, cut after its first `n`. -/
theorem after_split {τ : Topo} {sig : RefSig} {Val : EltTy → Type} (n : Nat) :
    ∀ (l : List (HloOp τ sig Val)) (V : Valuation τ sig Val), after l V = after (l.drop n) (after (l.take n) V) := by
  induction n with
  | zero => intro l V; rfl
  | succ n ih =>
    intro l V
    cases l with
    | nil => rfl
    | cons op l => exact ih l (op.result V)

/-- A transport along an equation of a type with itself is the identity (stated with a proof that is not `rfl`, so that
    rewriting with it records each use). -/
theorem cast_eq' {α : Sort _} (h : α = α) (a : α) : cast h a = a := eq_of_heq (cast_heq h a)

/-- Two transports in a row are one (likewise stated with a proof that is not `rfl`). -/
theorem cast_cast' {α β γ : Sort _} (ha : α = β) (hb : β = γ) (a : α) : cast hb (cast ha a) = cast (ha.trans hb) a :=
  eq_of_heq ((cast_heq hb _).trans ((cast_heq ha a).trans (cast_heq (ha.trans hb) a).symm))

/-- The fold of the first `k + n` operations of a line: the fold of the `n` after the first `k`, over the fold of the
    first `k`. -/
theorem after_take_add {τ : Topo} {sig : RefSig} {Val : EltTy → Type} (k n : Nat) (l : List (HloOp τ sig Val))
    (V : Valuation τ sig Val) : after (l.take (k + n)) V = after ((l.drop k).take n) (after (l.take k) V) := by
  rw [after_split k (l.take (k + n)), List.take_take, Nat.min_eq_left (Nat.le_add_right k n), List.drop_take,
    Nat.add_sub_cancel_left]

/-- Whether each start index is in range, between 0 and 8191, from the start indices themselves. -/
def okArrI (I : IVec S8192x1x1 32) : IVec S8192x1 1 :=
  Host.reduce IntOp.andi (andi (cmpi .sge I (broadcastInDim S8192x1x1 ![] bcast_S_S8192x1x1 (constantI S_ 32 0#32))) (cmpi .sle I (broadcastInDim S8192x1x1 ![0, 1, 2] bcast_S1x1x1_S8192x1x1_0_1_2 (broadcastInDim S1x1x1 ![2] bcast_S1_S1x1x1_2 (constantI S1 32 8191#32))))) (constantI S_ 1 1#1) reducesTo_S8192x1x1_S8192x1_d2 h_S_

/-- Each row read at its start index: the gathered entry where the index is in range, a NaN where it is not. -/
def pickArrI (P : FVec Ideal S8192x8192 .f32) (I : IVec S8192x1x1 32) : FVec Ideal S8192x1 .f32 :=
  select (okArrI I) (Host.gather gather_S8192x8192_S8192x1x1_S8192x1_n_1_0_0_1_2_11 P I) (broadcastInDim S8192x1 ![] bcast_S_S8192x1 (constant (F := Ideal) S_ .f32 0x7FC00000#32))

/-- The read at the labels is the read at the labels' start indices. -/
theorem pickArr_eq (P : FVec Ideal S8192x8192 .f32) (lc : IVec S8192x1 32) : pickArr P lc = pickArrI P (idxArr lc) := by
  unfold pickArr okArr pickArrI okArrI
  rfl

set_option maxRecDepth 8192 in
set_option maxHeartbeats 800000 in
/-- Operations 1 to 11, from the launch contents: the normalized stacked inputs. -/
theorem seg_norm (m : (ℓ : Loc nD τ sig) → Buf (Elt Ideal) ℓ) (c : Dev nD) :
    after (List.take 11 (ValueP.ops (F := Ideal))) (launchContents m c) (Proc.devRef .tc main_v5)
      = Cert.NTXent.znArr (m ((c.tc : Thread nD τ).loc main_arg0)) (m ((c.tc : Thread nD τ).loc main_arg1)) := by
  simp only [ValueP.ops, List.take_succ_cons, List.take_zero]
  after_results_simp
  simp only [cast_cast, cast_eq]
  unfold Cert.NTXent.znArr Cert.NTXent.znorm Cert.NTXent.zcat
  rfl

set_option maxRecDepth 8192 in
set_option maxHeartbeats 800000 in
/-- Operations 12 to 26, from any contents: the logits of the rows held in the normalisation's buffer. -/
theorem seg_logits (W : Valuation τ sig (Elt Ideal)) :
    after (List.take 15 (List.drop 11 (ValueP.ops (F := Ideal)))) W (Proc.devRef .tc main_v15)
      = logitsArr (W (Proc.devRef .tc main_v5)) := by
  simp only [ValueP.ops, List.drop_succ_cons, List.drop_zero, List.take_succ_cons, List.take_zero]
  after_results_simp
  simp only [cast_cast, cast_eq]
  generalize W (Proc.devRef .tc main_v5) = z
  unfold logitsArr
  rfl

set_option maxRecDepth 8192 in
set_option maxHeartbeats 800000 in
/-- Operations 27 to 48, from any contents, at the log-softmax's buffer: the log-softmax of the logits' buffer (the
    labels' operations among them write other buffers). -/
theorem seg_lsm (W : Valuation τ sig (Elt Ideal)) :
    after (List.take 22 (List.drop 26 (ValueP.ops (F := Ideal)))) W (Proc.devRef .tc main_v21)
      = lsmArr (W (Proc.devRef .tc main_v15)) := by
  simp only [ValueP.ops, List.drop_succ_cons, List.drop_zero, List.take_succ_cons, List.take_zero]
  after_results_simp
  simp only [cast_cast', cast_eq']
  generalize hL : (TRef.of (T := ⟨S8192x8192, .f32⟩) main_v15).ofBuf (W (Proc.devRef .tc main_v15)) = L
  have eL : W (Proc.devRef .tc main_v15) = L := hL
  rw [eL]
  clear hL eL
  simp only [lsmArr, shiftedArr, rowMaxArr]

set_option maxRecDepth 8192 in
set_option maxHeartbeats 1000000 in
/-- Operations 1 to 48, from the launch contents, at the buffer of the labels as a column: the partner labels. -/
theorem seg_labels (m : (ℓ : Loc nD τ sig) → Buf (Elt Ideal) ℓ) (c : Dev nD) :
    after (List.take 48 (ValueP.ops (F := Ideal))) (launchContents m c) (Proc.devRef .tc main_v22) = labColArr labelsArr := by
  simp only [ValueP.ops, List.take_succ_cons, List.take_zero]
  after_results_simp
  rfl

set_option maxRecDepth 8192 in
set_option maxHeartbeats 800000 in
/-- Operations 49 to 70, from any contents: the log-softmax read at the start indices made from the column of labels. -/
theorem seg_pick (W : Valuation τ sig (Elt Ideal)) :
    after (List.take 22 (List.drop 48 (ValueP.ops (F := Ideal)))) W (Proc.devRef .tc main_v23)
      = pickArrI (W (Proc.devRef .tc main_v21)) (idxArr (W (Proc.devRef .tc main_v22))) := by
  simp only [ValueP.ops, List.drop_succ_cons, List.drop_zero, List.take_succ_cons, List.take_zero]
  after_results_simp
  simp only [cast_cast, cast_eq]
  generalize hP : (TRef.of (T := ⟨S8192x8192, .f32⟩) main_v21).ofBuf (W (Proc.devRef .tc main_v21)) = P
  have eP : W (Proc.devRef .tc main_v21) = P := hP
  generalize hC : (TRef.of (T := ⟨S8192x1, .i32⟩) main_v22).ofBuf (W (Proc.devRef .tc main_v22)) = C
  have eC : W (Proc.devRef .tc main_v22) = C := hC
  rw [eP, eC]
  clear hP eP hC eC
  show pickArrI P _ = pickArrI P (idxArr C)
  refine congrArg (pickArrI P) ?_
  unfold idxArr
  rfl

set_option maxHeartbeats 400000 in
/-- The result is the negated mean of the rows' log-softmax read at the partner labels, the logits those of the
    normalized stacked inputs. -/
theorem res_open (m : (ℓ : Loc nD τ sig) → Buf (Elt Ideal) ℓ) (c : Dev nD) :
    ValueP.res (F := Ideal) m c
      = finalArr (pickArr (lsmArr (logitsArr (Cert.NTXent.znArr (m ((c.tc : Thread nD τ).loc main_arg0)) (m ((c.tc : Thread nD τ).loc main_arg1))))) (labColArr labelsArr)) := by
  unfold ValueP.res
  rw [after_split 70, seg_mean, after_take_add 48 22, seg_pick, seg_labels, after_take_add 26 22, seg_lsm,
    after_take_add 11 15, seg_logits, seg_norm, ← pickArr_eq]

end Cert.ReferenceIdeal.Hand

end
-- ==== Proof.RefTake.lean ====
/-
  The reference's read of each row at its partner label.

  The labels are the stack of `4096 + i` over the first half and `i` over the second: row `i`'s label is its partner,
  a number below 8192, as a 32-bit word. Such a word is not negative, so the wrap by 8192 leaves it; it is between 0 and
  8191, so the in-range test holds at every row; and the gather with the row as batching coordinate and the label as
  the (clamped) start on the column axis reads the matrix at (row, partner).
-/
import proofs.«116952_j83391085019210_2_alg».proof.Proof.RefStages
import proofs.«116952_j83391085019210_2_alg».proof.Proof.Spec
import Idealize.ShloMosaic.Lib.ValueIdx
import Idealize.ShloMosaic.Lib.Pipeline.Value
import Idealize.ShloMosaic.PureOps.Reduce

noncomputable section

namespace Cert.ReferenceIdeal.Hand

open Cert.ReferenceIdeal Cert.ReferenceIdeal.Gen Idealize.ShloMosaic Idealize.ShloMosaic.ValueIdx
open Cert.NTXent (lab)

/-! ### Words -/

/-- A number below 2³¹ as a 32-bit word reads signed as itself. -/
theorem toInt_ofNat_small (n : Nat) (hn : n < 8192) : (BitVec.ofNat 32 n).toInt = (n : Int) := by
  have hN : (BitVec.ofNat 32 n).toNat = n := by rw [BitVec.toNat_ofNat]; exact Nat.mod_eq_of_lt (by omega)
  rw [BitVec.toInt_eq_toNat_of_lt (by rw [hN]; omega), hN]

/-- A conjunction of ones, taken in any order from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_ones f l fun n hn => h n (List.mem_cons_of_mem _ hn)

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ### The labels -/

/-- Row `i`'s label is its partner, as a word. -/
theorem labelsArr_apply (i : Fin 8192) : labelsArr (ix1 i) = BitVec.ofNat 32 (lab i).val := by
  unfold labelsArr
  by_cases h : i.val < 4096
  · refine (concatenate_pair_apply_left (0 : Fin S8192.rank) _ _ concatenates_S4096_S4096_S8192_d0 (ix1 i) rfl
      (ix1 (⟨i.val, h⟩ : Fin 4096)) (fun b => by match b with | ⟨0, _⟩ => rfl)).trans ?_
    show (4096#32 : BitVec 32) + BitVec.ofNat 32 i.val = _
    unfold lab
    rw [dif_pos h]
    show _ = BitVec.ofNat 32 (i.val + 4096)
    rw [Nat.add_comm, BitVec.ofNat_add]
  · refine (concatenate_pair_apply_right (0 : Fin S8192.rank) _ _ concatenates_S4096_S4096_S8192_d0 (ix1 i) rfl rfl
      (ix1 (⟨i.val - 4096, by omega⟩ : Fin 4096)) (fun b hb => absurd (Subsingleton.elim _ _) hb)
      (by show i.val - 4096 + 4096 = i.val; omega)).trans ?_
    show BitVec.ofNat 32 (i.val - 4096) = _
    unfold lab
    rw [dif_neg h]

/-- The labels as a column, read at a row. -/
theorem labColArr_apply (lb : IVec S8192 32) (i : Fin 8192) : labColArr lb (ix2 i (0 : Fin 1)) = lb (ix1 i) := by
  unfold labColArr
  exact broadcastInDim_apply _ _ _ _ (ix1 i) (fun a => by match a with | ⟨0, _⟩ => rfl)

/-! ### The start indices and the in-range test -/

/-- A label below 8192 is not negative: the wrap leaves it. -/
theorem idxArr_apply (lc : IVec S8192x1 32) (i : Fin 8192) (n : Nat) (hn : n < 8192)
    (h : lc (ix2 i (0 : Fin 1)) = BitVec.ofNat 32 n) :
    idxArr lc (ix3 i (0 : Fin 1) (0 : Fin 1)) = BitVec.ofNat 32 n := by
  unfold idxArr
  refine (shapeCast_apply _ _ _ (ix2 i (0 : Fin 1)) (by
    rw [Shape.rowMajor_val_two, Shape.rowMajor_val_three]
    show i.val * 1 + 0 = (i.val * 1 + 0) * 1 + 0
    omega)).trans ?_
  show Scalar.select (IntOp.cmpi .slt (lc (ix2 i (0 : Fin 1))) 0#32) (IntOp.addi (lc (ix2 i (0 : Fin 1))) 8192#32)
    (lc (ix2 i (0 : Fin 1))) = _
  rw [h]
  have hneg : ¬ IntOp.cmpi .slt (BitVec.ofNat 32 n) 0#32 = 1#1 := by
    rw [IntOp.cmpi_slt, toInt_ofNat_small n hn, show (0#32 : BitVec 32).toInt = 0 by decide]; omega
  exact if_neg hneg

/-- Every start index is in range. -/
theorem okArr_eq_one (lc : IVec S8192x1 32)
    (hlc : ∀ i : Fin 8192, ∃ n, n < 8192 ∧ lc (ix2 i (0 : Fin 1)) = BitVec.ofNat 32 n) (j : S8192x1.Idx) :
    okArr lc j = 1#1 := by
  unfold okArr
  refine reduce_andi_ones _ _ _ _ _ rfl fun k => ?_
  obtain ⟨a, b, c, rfl⟩ : ∃ (a : Fin 8192) (b c : Fin 1), k = ix3 a b c := ⟨_, _, _, eq_ix3 k⟩
  obtain rfl : b = 0 := Subsingleton.elim _ _
  obtain rfl : c = 0 := Subsingleton.elim _ _
  obtain ⟨n, hn, e⟩ := hlc a
  show IntOp.andi (IntOp.cmpi .sge (idxArr lc (ix3 a (0 : Fin 1) (0 : Fin 1))) 0#32)
    (IntOp.cmpi .sle (idxArr lc (ix3 a (0 : Fin 1) (0 : Fin 1))) 8191#32) = 1#1
  rw [idxArr_apply lc a n hn e, IntOp.andi_eq_one, IntOp.cmpi_sge, IntOp.cmpi_sle, toInt_ofNat_small n hn,
    show (0#32 : BitVec 32).toInt = 0 by decide, show (8191#32 : BitVec 32).toInt = 8191 by decide]
  constructor <;> omega

/-! ### The gather -/

/-- The gather at row `i` reads the matrix at (i, the start index), the start index being in range. -/
theorem gather_apply (P : FVec Ideal S8192x8192 .f32) (idx : IVec S8192x1x1 32) (i : Fin 8192) (n : Nat) (hn : n < 8192)
    (h : idx (ix3 i (0 : Fin 1) (0 : Fin 1)) = BitVec.ofNat 32 n) :
    Host.gather gather_S8192x8192_S8192x1x1_S8192x1_n_1_0_0_1_2_11 P idx (ix2 i (0 : Fin 1))
      = P (ix2 i (⟨n, hn⟩ : Fin 8192)) := by
  unfold Host.gather
  congr 1
  funext a
  refine Fin.ext ?_
  match a with
  | ⟨0, _⟩ =>
    have hmem : (0 : Fin S8192x8192.rank) ∈ gather_S8192x8192_S8192x1x1_S8192x1_n_1_0_0_1_2_11.operandBatchingDims :=
      List.mem_singleton.mpr rfl
    show gather_S8192x8192_S8192x1x1_S8192x1_n_1_0_0_1_2_11.start (ix2 i (0 : Fin 1)) idx 0
      + gather_S8192x8192_S8192x1x1_S8192x1_n_1_0_0_1_2_11.batchCoord (ix2 i (0 : Fin 1)) 0
      + gather_S8192x8192_S8192x1x1_S8192x1_n_1_0_0_1_2_11.offCoord (ix2 i (0 : Fin 1)) 0 = i.val
    rw [GatherDims.start_batching _ _ _ _ hmem,
      GatherDims.offCoord_eq_zero _ _ _ (fun hk => ((GatherDims.mem_sKept _ _).mp hk).2 hmem)]
    simp only [Nat.zero_add, Nat.add_zero]
    unfold GatherDims.batchCoord
    rw [dif_pos hmem]
    rfl
  | ⟨1, _⟩ =>
    have hmem : (1 : Fin S8192x8192.rank) ∈ gather_S8192x8192_S8192x1x1_S8192x1_n_1_0_0_1_2_11.startIndexMap :=
      List.mem_singleton.mpr rfl
    have hcol : (1 : Fin S8192x8192.rank) ∈ gather_S8192x8192_S8192x1x1_S8192x1_n_1_0_0_1_2_11.collapsedSliceDims :=
      List.mem_singleton.mpr rfl
    have hnb : (1 : Fin S8192x8192.rank) ∉ gather_S8192x8192_S8192x1x1_S8192x1_n_1_0_0_1_2_11.operandBatchingDims := by
      decide
    show gather_S8192x8192_S8192x1x1_S8192x1_n_1_0_0_1_2_11.start (ix2 i (0 : Fin 1)) idx 1
      + gather_S8192x8192_S8192x1x1_S8192x1_n_1_0_0_1_2_11.batchCoord (ix2 i (0 : Fin 1)) 1
      + gather_S8192x8192_S8192x1x1_S8192x1_n_1_0_0_1_2_11.offCoord (ix2 i (0 : Fin 1)) 1 = n
    rw [GatherDims.batchCoord_eq_zero _ _ _ hnb,
      GatherDims.offCoord_eq_zero _ _ _ (fun hk => ((GatherDims.mem_sKept _ _).mp hk).1 hcol)]
    simp only [Nat.add_zero]
    unfold GatherDims.start
    rw [dif_pos hmem]
    have hsi : gather_S8192x8192_S8192x1x1_S8192x1_n_1_0_0_1_2_11.siIdx (ix2 i (0 : Fin 1))
        ⟨List.idxOf (1 : Fin S8192x8192.rank) gather_S8192x8192_S8192x1x1_S8192x1_n_1_0_0_1_2_11.startIndexMap,
          List.idxOf_lt_length_iff.2 hmem⟩ = ix3 i (0 : Fin 1) (0 : Fin 1) := by
      funext b; refine Fin.ext ?_
      match b with
      | ⟨0, _⟩ => rfl
      | ⟨1, _⟩ => rfl
      | ⟨2, _⟩ => rfl
    rw [hsi, h, toInt_ofNat_small n hn]
    show min (n : Int).toNat (8192 - 1) = n
    rw [Int.toNat_natCast]
    omega

/-! ### The read -/

/-- Each row of `P` read at its partner label. -/
theorem pickArr_apply (P : FVec Ideal S8192x8192 .f32) (i : Fin 8192) :
    pickArr P (labColArr labelsArr) (ix2 i (0 : Fin 1)) = P (ix2 i (lab i)) := by
  have hlc : ∀ a : Fin 8192, labColArr labelsArr (ix2 a (0 : Fin 1)) = BitVec.ofNat 32 (lab a).val :=
    fun a => by rw [labColArr_apply, labelsArr_apply]
  unfold pickArr
  rw [select_apply, okArr_eq_one _ (fun a => ⟨(lab a).val, (lab a).isLt, hlc a⟩), select_one]
  exact gather_apply P _ i (lab i).val (lab i).isLt (idxArr_apply _ i _ (lab i).isLt (hlc i))

end Cert.ReferenceIdeal.Hand

end
-- ==== Proof.RefLogit.lean ====
/-
  The reference's logits read at an index.

  The product of the normalized rows with their transpose, read at (i, j), is the sum over the 256 features of the
  products of row i's and row j's entries: the similarity. The two iotas are the row and the column numbers, equal as
  32-bit words exactly when i = j, so the select puts the fill on the diagonal and the similarity elsewhere; the
  division by the broadcast temperature is the division by the temperature.
-/
import proofs.«116952_j83391085019210_2_alg».proof.Proof.RefStages
import proofs.«116952_j83391085019210_2_alg».proof.Proof.Spec
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- The rows' product with their transpose at (i, j): the inner product of rows i and j. -/
theorem dot_apply (zn : FVec Ideal S8192x256 .f32) (i j : Fin 8192) :
    Host.dotGeneral dot_S8192x256_S256x8192_S8192x8192_1_0_0_1_n_n none zn
        (transpose S256x8192 [1, 0] zn transposes_S8192x256_S256x8192_1_0) (ix2 i j)
      = ∑ k : Fin 256, zn (ix2 i k) * zn (ix2 j k) := by
  show FloatOps.dotGeneral _ none _ zn _ (ix2 i j) = _
  rw [Ideal.dotGeneral_apply,
    ← Equiv.sum_comp (contrEquiv1 dot_S8192x256_S256x8192_S8192x8192_1_0_0_1_n_n 256 rfl rfl).symm]
  refine Finset.sum_congr rfl fun c _ => ?_
  have c2 := contrEquiv1_symm_val dot_S8192x256_S256x8192_S8192x8192_1_0_0_1_n_n 256 rfl rfl c
  have l2 : dot_S8192x256_S256x8192_S8192x8192_1_0_0_1_n_n.lhsIdx (ix2 i j)
      ((contrEquiv1 dot_S8192x256_S256x8192_S8192x8192_1_0_0_1_n_n 256 rfl rfl).symm c) = ix2 i c := by
    funext ax; apply Fin.ext
    match ax with
    | ⟨0, _⟩ => rfl
    | ⟨1, _⟩ => exact (DotDims.lhsIdx_val_of_single _ rfl _ _).trans c2
  have r2 : dot_S8192x256_S256x8192_S8192x8192_1_0_0_1_n_n.rhsIdx (ix2 i j)
      ((contrEquiv1 dot_S8192x256_S256x8192_S8192x8192_1_0_0_1_n_n 256 rfl rfl).symm c) = ix2 c j := by
    funext ax; apply Fin.ext
    match ax with
    | ⟨0, _⟩ => exact (DotDims.rhsIdx_val_of_single _ rfl _ _).trans c2
    | ⟨1, _⟩ => rfl
  rw [l2, r2]
  congr 1
  exact transpose_apply [1, 0] zn transposes_S8192x256_S256x8192_1_0 (ix2 c j) (ix2 j c)
    (fun b => match b with | ⟨0, _⟩ => rfl | ⟨1, _⟩ => rfl)

/-- Two numbers below 8192 are equal as 32-bit words exactly when they are equal. -/
theorem ofNat_inj_small (i j : Fin 8192) : BitVec.ofNat 32 i.val = BitVec.ofNat 32 j.val ↔ i = j := by
  constructor
  · intro e
    have h := congrArg BitVec.toNat e
    rw [BitVec.toNat_ofNat, BitVec.toNat_ofNat, Nat.mod_eq_of_lt (Nat.lt_trans i.isLt (by decide)),
      Nat.mod_eq_of_lt (Nat.lt_trans j.isLt (by decide))] at h
    exact Fin.ext h
  · rintro rfl; rfl

/-- The logits at (i, j): the masked similarity over the temperature. -/
theorem logitsArr_apply (zn : FVec Ideal S8192x256 .f32) (i j : Fin 8192) :
    logitsArr zn (ix2 i j) = Cert.NTXent.logit (fun a k => zn (ix2 a k)) i j := by
  have hd := dot_apply zn i j
  unfold Cert.NTXent.logit Cert.NTXent.masked Cert.NTXent.sim Cert.NTXent.temp Cert.NTXent.fill
  show Ideal.div (Scalar.select (IntOp.cmpi .eq (IntOp.addi (BitVec.ofNat 32 i.val) 0#32) (BitVec.ofNat 32 j.val))
      (Ideal.ofBits .f32 0xD9FFCB9E#32)
      (Host.dotGeneral dot_S8192x256_S256x8192_S8192x8192_1_0_0_1_n_n none zn
        (transpose S256x8192 [1, 0] zn transposes_S8192x256_S256x8192_1_0) (ix2 i j)))
    (Ideal.ofBits .f32 0x3D8F5C29#32) = _
  rw [hd]
  congr 1
  have hw : IntOp.addi (BitVec.ofNat 32 i.val) 0#32 = BitVec.ofNat 32 i.val := BitVec.add_zero _
  rw [hw]
  by_cases hij : i = j
  · rw [if_pos hij, (IntOp.cmpi_eq).mpr ((ofNat_inj_small i j).mpr hij), select_one]
  · rw [if_neg hij]
    exact if_neg fun e => hij ((ofNat_inj_small i j).mp ((IntOp.cmpi_eq).mp e))

end Cert.ReferenceIdeal.Hand

end
-- ==== Proof.LibRowMaxReal.lean ====
/-
  The maximum of a nonempty finite family of real numbers, folded from `-∞`, is a real number.

  A softmax that shifts by the row maximum computes that maximum as a fold of `max` whose starting value is `-∞`. On the
  extended reals `-∞` is the bottom element, so it is absorbed by the first entry; and the maximum of two reals is a real.
  Hence over a nonempty index set whose entries are all real the fold is a real number `M` — which is all a log-sum-exp
  shift needs of it (the shift law holds for every real `M`; that `M` is the largest entry is not used). Stated for
  `max` and for the ideal instance's `maximumf`, which is `max`.
-/
import Idealize.ShloMosaic.PureOps.Ideal
import Idealize.ShloMosaic.PureOps.Ideal.Laws

noncomputable section

namespace Idealize.ShloMosaic.Ideal

/-- Folding `max` from `⊥` over a nonempty finite set of reals (read as extended reals) gives a real. -/
theorem fold_max_bot_coe_real {ι : Type*} (s : Finset ι) (hs : s.Nonempty) (f : ι → ℝ) :
    ∃ M : ℝ, s.fold max (⊥ : EReal) (fun j => ((f j : ℝ) : EReal)) = ((M : ℝ) : EReal) := by
  induction hs using Finset.Nonempty.cons_induction with
  | singleton a => exact ⟨f a, by rw [Finset.fold_singleton, max_bot_right]⟩
  | cons a s ha _ ih =>
    obtain ⟨M, hM⟩ := ih
    exact ⟨max (f a) M, by rw [Finset.fold_cons, hM]; exact (EReal.coe_strictMono.monotone.map_max).symm⟩

/-- The same for the ideal instance's `maximumf` at any float format: it is `max` on the extended reals. -/
theorem fold_maximumf_bot_coe_real {φ : FTy} {ι : Type*} (s : Finset ι) (hs : s.Nonempty) (f : ι → ℝ) :
    ∃ M : ℝ, s.fold (FloatOps.maximumf (F := Ideal) (φ := φ)) (⊥ : EReal) (fun j => ((f j : ℝ) : EReal)) = ((M : ℝ) : EReal) :=
  fold_max_bot_coe_real s hs f

/-- Taking the maximum with `-∞` once more (a clamp from below by `-∞`) changes nothing. -/
theorem max_bot_fold_max_bot_coe_real {ι : Type*} (s : Finset ι) (hs : s.Nonempty) (f : ι → ℝ) :
    ∃ M : ℝ, max (⊥ : EReal) (s.fold max (⊥ : EReal) (fun j => ((f j : ℝ) : EReal))) = ((M : ℝ) : EReal) := by
  obtain ⟨M, hM⟩ := fold_max_bot_coe_real s hs f
  exact ⟨M, by rw [hM, max_bot_left]⟩

end Idealize.ShloMosaic.Ideal

end
-- ==== Proof.LibLogSumExpShift.lean ====
/-
  The log-sum-exp shift on the extended reals.

  A numerically careful softmax subtracts a row's maximum `M` before exponentiating; the plain one does not. Over exact
  arithmetic the two agree: for real logits `x j` over a finite nonempty index set and any real `M`,

      log (∑ j, exp (x j - M)) = log (∑ j, exp (x j)) - M,

  because `exp (x - M) = exp x / exp M`, the common factor leaves the sum, the sum of exponentials is positive, and the
  logarithm of a quotient of positive numbers is the difference of the logarithms. Hence the log-softmax read at a label
  `l`, `(x l - M) - log (∑ j, exp (x j - M))`, is `x l - log (∑ j, exp (x j))` whatever `M` is, and the cross-entropy
  row `log (∑ j, exp (x j)) - x l` is its negation. The statements are on the extended reals with the exact exponential
  and logarithm there; every hypothesis is that the logits (and the shift) are real numbers, which is what keeps the
  sums away from the infinities, where subtraction does not cancel.
-/
import Idealize.ShloMosaic.PureOps.Ideal

noncomputable section

namespace Idealize.ShloMosaic.Ideal

open scoped BigOperators

/-- A finite sum of real numbers, each read as an extended real, is the real sum read as an extended real. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum of the exponentials of real logits is the real sum of the real exponentials. -/
theorem sum_exp_coe {ι : Type*} [Fintype ι] (x : ι → ℝ) :
    (∑ j, Ideal.exp ((x j : ℝ) : EReal)) = ((∑ j, Real.exp (x j) : ℝ) : EReal) := by
  simp only [Ideal.exp_coe]
  exact coe_finset_sum Finset.univ fun j => Real.exp (x j)

/-- Over a nonempty index set that sum is positive, so its logarithm is the real logarithm. -/
theorem log_sum_exp_coe {ι : Type*} [Fintype ι] [Nonempty ι] (x : ι → ℝ) :
    Ideal.log (∑ j, Ideal.exp ((x j : ℝ) : EReal)) = ((Real.log (∑ j, Real.exp (x j)) : ℝ) : EReal) := by
  have hpos : 0 < ∑ j, Real.exp (x j) := Finset.sum_pos (fun j _ => Real.exp_pos (x j)) Finset.univ_nonempty
  rw [sum_exp_coe, Ideal.log_coe, if_neg (not_le.mpr hpos)]

/-- THE SHIFT: subtracting a real `M` from every logit subtracts `M` from the log-sum-exp. -/
theorem log_sum_exp_sub {ι : Type*} [Fintype ι] [Nonempty ι] (x : ι → ℝ) (M : ℝ) :
    Ideal.log (∑ j, Ideal.exp (((x j : ℝ) : EReal) - ((M : ℝ) : EReal)))
      = Ideal.log (∑ j, Ideal.exp ((x j : ℝ) : EReal)) - ((M : ℝ) : EReal) := by
  have hpos : 0 < ∑ j, Real.exp (x j) := Finset.sum_pos (fun j _ => Real.exp_pos (x j)) Finset.univ_nonempty
  have hsum : (∑ j, Real.exp (x j - M)) = (∑ j, Real.exp (x j)) / Real.exp M := by
    rw [Finset.sum_div]; exact Finset.sum_congr rfl fun j _ => Real.exp_sub (x j) M
  have hreal : Real.log (∑ j, Real.exp (x j - M)) = Real.log (∑ j, Real.exp (x j)) - M := by
    rw [hsum, Real.log_div hpos.ne' (Real.exp_pos M).ne', Real.log_exp]
  simp only [← EReal.coe_sub]
  rw [log_sum_exp_coe (fun j => x j - M), log_sum_exp_coe x, hreal, EReal.coe_sub]

/-- The log-softmax of shifted logits read at a label does not depend on the shift. -/
theorem log_softmax_shift {ι : Type*} [Fintype ι] [Nonempty ι] (x : ι → ℝ) (M : ℝ) (l : ι) :
    (((x l : ℝ) : EReal) - ((M : ℝ) : EReal)) - Ideal.log (∑ j, Ideal.exp (((x j : ℝ) : EReal) - ((M : ℝ) : EReal)))
      = ((x l : ℝ) : EReal) - Ideal.log (∑ j, Ideal.exp ((x j : ℝ) : EReal)) := by
  rw [log_sum_exp_sub, log_sum_exp_coe x]
  simp only [← EReal.coe_sub]
  congr 1; ring

/-- The cross-entropy row `log (∑ exp x) - x l` is the negated log-softmax of the shifted logits at `l`. -/
theorem cross_entropy_row_eq_neg_log_softmax {ι : Type*} [Fintype ι] [Nonempty ι] (x : ι → ℝ) (M : ℝ) (l : ι) :
    Ideal.log (∑ j, Ideal.exp ((x j : ℝ) : EReal)) - ((x l : ℝ) : EReal)
      = -((((x l : ℝ) : EReal) - ((M : ℝ) : EReal)) - Ideal.log (∑ j, Ideal.exp (((x j : ℝ) : EReal) - ((M : ℝ) : EReal)))) := by
  rw [log_softmax_shift, log_sum_exp_coe x]
  simp only [← EReal.coe_sub, ← EReal.coe_neg]
  congr 1; ring

end Idealize.ShloMosaic.Ideal

end
-- ==== Proof.RefReads.lean ====
/-
  The reference program's groups of operations read at an index.

  A row's running maximum is the maximum of -∞ and the fold of the maximum over the row's logits, a real number once the
  logits are; the log-softmax read at (i, j) is the shifted logit less the logarithm of the sum of the exponentials of
  the row's shifted logits; the negated mean sums the 8192 rows. With the logits read at (i, j) and the read at the
  partner label taking column `lab i`, the groups composed are the loss in the arrangement `Cert.NTXent.lossR`, the
  shift being the rows' running maxima.
-/
import proofs.«116952_j83391085019210_2_alg».proof.Proof.RefStages
import proofs.«116952_j83391085019210_2_alg».proof.Proof.RefTake
import proofs.«116952_j83391085019210_2_alg».proof.Proof.RefLogit
import proofs.«116952_j83391085019210_2_alg».proof.Proof.Spec
import proofs.«116952_j83391085019210_2_alg».proof.Proof.LibRowMaxReal
import proofs.«116952_j83391085019210_2_alg».proof.Proof.LibLogSumExpShift
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.ValueIdx
open scoped BigOperators

/-! ## Broadcasts read at an index -/

/-- A scalar broadcast to any shape reads the scalar. -/
theorem bcast_scalar {α : Type} {t : Shape} {dims : Fin S_.rank → Fin t.rank} (h : S_.BroadcastsInDim t dims)
    (y : S_.Idx → α) (j : t.Idx) : broadcastInDim t dims h y j = y ix0 :=
  broadcastInDim_apply dims h y j ix0 (fun a => a.elim0)

/-- A column broadcast along the rows reads the column at the row. -/
theorem bcast_col_apply {α : Type} (y : S8192x1.Idx → α) (i j : Fin 8192) :
    broadcastInDim S8192x8192 ![0, 1] bcast_S8192x1_S8192x8192_0_1 y (ix2 i j) = y (ix2 i (0 : Fin 1)) :=
  broadcastInDim_apply _ bcast_S8192x1_S8192x8192_0_1 y (ix2 i j) (ix2 i (0 : Fin 1)) (fun a => match a with
    | ⟨0, _⟩ => by show i.val = if (8192 : Nat) = 1 then 0 else i.val; rw [if_neg (by decide)]
    | ⟨1, _⟩ => by show 0 = if (1 : Nat) = 1 then 0 else j.val; rw [if_pos rfl])

/-- A vector as a column reads the vector at the row. -/
theorem bcast_row_apply {α : Type} (y : S8192.Idx → α) (i : Fin 8192) (z : Fin 1) :
    broadcastInDim S8192x1 ![0] bcast_S8192_S8192x1_0 y (ix2 i z) = y (ix1 i) :=
  broadcastInDim_apply _ bcast_S8192_S8192x1_0 y (ix2 i z) (ix1 i) (fun a => match a with
    | ⟨0, _⟩ => by show i.val = if (8192 : Nat) = 1 then 0 else i.val; rw [if_neg (by decide)])

/-! ## The running maximum -/

theorem ofBits_neg_inf : Ideal.ofBits .f32 0xFF800000#32 = (⊥ : EReal) := by simp [Ideal.ofBits, Ideal.ieee]

/-- A row's running maximum: the maximum of -∞ and the fold of the maximum from -∞ over the row. -/
theorem rowMaxArr_apply (L : FVec Ideal S8192x8192 .f32) (i : Fin 8192) :
    rowMaxArr L (ix1 i) = max (⊥ : EReal)
      ((Finset.univ : Finset (Fin 8192)).fold (FloatOps.maximumf (F := Ideal) (φ := .f32)) (⊥ : EReal) (fun j => L (ix2 i j))) := by
  have hr : S8192x8192.Reduces [1] S8192 := by decide
  have hf : (L ∘ hr.lift (ix1 i)) = fun j : Fin 8192 => L (ix2 i j) :=
    funext fun k => congrArg L (funext fun a => Fin.ext (by match a with | ⟨0, _⟩ => rfl | ⟨1, _⟩ => rfl))
  unfold rowMaxArr
  rw [maximumf_apply, bcast_scalar, Host.reduce_eq_fold_single FloatOps.maximumf L _ reducesTo_S8192x8192_S8192_d1 hr h_S_ (ix1 i),
    constant_apply, constant_apply, ofBits_neg_inf, hf]
  rfl

/-- Over real logits a row's running maximum is a real number. -/
theorem rowMaxArr_real (L : FVec Ideal S8192x8192 .f32) (i : Fin 8192)
    (hL : ∀ j : Fin 8192, ∃ r : ℝ, L (ix2 i j) = ((r : ℝ) : EReal)) : ∃ r : ℝ, rowMaxArr L (ix1 i) = ((r : ℝ) : EReal) := by
  rw [rowMaxArr_apply]
  choose f hf using hL
  rw [show (fun j => L (ix2 i j)) = fun j => ((f j : ℝ) : EReal) from funext hf]
  obtain ⟨M, hM⟩ := Idealize.ShloMosaic.Ideal.fold_maximumf_bot_coe_real (φ := .f32) Finset.univ Finset.univ_nonempty f
  exact ⟨M, by rw [hM, max_bot_left]⟩

/-! ## The log-softmax -/

/-- The shifted logit. -/
theorem shiftedArr_apply (L : FVec Ideal S8192x8192 .f32) (i k : Fin 8192) :
    shiftedArr L (ix2 i k) = L (ix2 i k) - rowMaxArr L (ix1 i) := by
  unfold shiftedArr
  rw [subf_apply, bcast_col_apply, bcast_row_apply]

/-- The log-softmax read at (i, j). -/
theorem lsmArr_apply (L : FVec Ideal S8192x8192 .f32) (i j : Fin 8192) :
    lsmArr L (ix2 i j) = (L (ix2 i j) - rowMaxArr L (ix1 i))
      - Ideal.log (∑ k : Fin 8192, Ideal.exp (L (ix2 i k) - rowMaxArr L (ix1 i))) := by
  have hr : S8192x8192.Reduces [1] S8192 := by decide
  have hlog : ∀ (y : FVec Ideal S8192x1 .f32) (q : S8192x1.Idx), Host.log y q = Ideal.log (y q) := fun _ _ => rfl
  have hexp : ∀ (y : FVec Ideal S8192x8192 .f32) (q : S8192x8192.Idx), Host.exp y q = Ideal.exp (y q) := fun _ _ => rfl
  unfold lsmArr
  rw [subf_apply, bcast_col_apply, hlog, bcast_row_apply, shiftedArr_apply]
  simp only [Host.reduceAdd, Ideal.hostReduceAdd_def]
  rw [Ideal.hostReduceAdd_single reducesTo_S8192x8192_S8192_d1 hr, constant_apply, Ideal.ofBits_zero_f32, zero_add]
  refine congrArg (fun t => (L (ix2 i j) - rowMaxArr L (ix1 i)) - Ideal.log t) (Finset.sum_congr rfl fun (k : Fin 8192) _ => ?_)
  rw [hexp]
  exact congrArg Ideal.exp ((congrArg (shiftedArr L)
    (funext fun a => Fin.ext (by match a with | ⟨0, _⟩ => rfl | ⟨1, _⟩ => rfl))).trans (shiftedArr_apply L i k))

/-! ## The negated mean -/

/-- The negated mean of a column: the negated quotient of the sum of its 8192 entries by 8192. -/
theorem finalArr_apply (v : FVec Ideal S8192x1 .f32) (q : S_.Idx) :
    finalArr v q = - Ideal.div (∑ i : Fin 8192, v (ix2 i (0 : Fin 1))) Cert.NTXent.rows := by
  have hneg : ∀ (y : FVec Ideal S_ .f32) (p : S_.Idx), Host.negf y p = -(y p) := fun _ _ => rfl
  have hdiv : ∀ (a b : FVec Ideal S_ .f32) (p : S_.Idx), Host.divf a b p = Ideal.div (a p) (b p) := fun _ _ _ => rfl
  unfold finalArr Cert.NTXent.rows
  rw [hneg, hdiv, constant_apply]
  simp only [Host.reduceAdd, Ideal.hostReduceAdd_def]
  rw [Ideal.hostReduceAdd_total reducesTo_S8192x1_S_d0_1 (fun b => b.elim0), constant_apply, Ideal.ofBits_zero_f32, zero_add, sum_idx2]
  simp only [Fin.sum_univ_one]

/-! ## The groups composed -/

/-- The log-softmax of the logits, read at the partner labels, negated and averaged, is the loss in the arrangement
    `lossR`, shifted by the rows' running maxima. -/
theorem value_of (zn : FVec Ideal S8192x256 .f32) (q : S_.Idx) :
    finalArr (pickArr (lsmArr (logitsArr zn)) (labColArr labelsArr)) q
      = Cert.NTXent.lossR (fun a k => zn (ix2 a k)) (fun i => rowMaxArr (logitsArr zn) (ix1 i)) := by
  rw [finalArr_apply]
  unfold Cert.NTXent.lossR Cert.NTXent.rowR
  refine congrArg (fun t => - Ideal.div t Cert.NTXent.rows) (Finset.sum_congr rfl fun i _ => ?_)
  rw [pickArr_apply, lsmArr_apply]
  simp only [logitsArr_apply]

end Cert.ReferenceIdeal.Hand

end
-- ==== Proof.LossLaw.lean ====
/-
  The two arrangements of the contrastive loss agree on real rows.

  With every entry of `Z` a real number the similarities are real inner products, the fill, the temperature and the
  row count are real constants, and division by the temperature is multiplication by the scale (its exact reciprocal),
  so both arrangements see the same real logits `x i j`. Per row: the eight chunks of 1024 columns are all 8192
  columns, the one-hot sums pick the partner's column, so the chunked row is `log (∑ exp x) - x (partner)`, the
  cross-entropy row, and the shifted log-softmax at the partner is its negation whatever the real shift is (the
  log-sum-exp shift law). Both sides are then the same real sum over the rows divided by 8192, one negated; every
  subtraction and negation is carried out between real numbers.
-/
import proofs.«116952_j83391085019210_2_alg».proof.Proof.Spec
import proofs.«116952_j83391085019210_2_alg».proof.Proof.LibLogSumExpShift

noncomputable section

namespace Cert.NTXent

open Idealize.ShloMosaic
open scoped BigOperators

/-! ### The three float constants, as real numbers -/

/-- The row count's pattern denotes the real `8192`. -/
theorem rows_eq : rows = ((8192 : ℝ) : EReal) := by
  unfold rows
  simp [Ideal.ofBits, Ideal.ieee, -EReal.coe_mul]; norm_num

/-- The temperature's pattern denotes the real `9395241 / 2²⁷`. -/
theorem temp_eq : temp = ((9395241 / 134217728 : ℝ) : EReal) := by
  unfold temp
  simp [Ideal.ofBits, Ideal.ieee, -EReal.coe_mul]; norm_num

/-- The fill's pattern denotes some real number (which one does not matter). -/
theorem fill_real : ∃ r : ℝ, fill = ((r : ℝ) : EReal) := by
  unfold fill
  simp [Ideal.ofBits, Ideal.ieee, -EReal.coe_mul]
  exact ⟨_, rfl⟩

/-! ### The eight chunks of 1024 columns are all 8192 columns -/

/-- Chunk and offset against column: `(c, j) ↦ 1024 c + j` is a bijection. -/
def chunkEquiv : Fin 8 × Fin 1024 ≃ Fin 8192 where
  toFun p := col p.1 p.2
  invFun j := (⟨j.val / 1024, by omega⟩, ⟨j.val % 1024, by omega⟩)
  left_inv := by
    rintro ⟨c, j⟩
    simp only [col]
    refine Prod.ext (Fin.ext ?_) (Fin.ext ?_) <;> simp only <;> omega
  right_inv := by
    intro j
    simp only [col]
    refine Fin.ext ?_
    simp only
    omega

/-- A sum taken chunk by chunk is the sum over all columns. -/
theorem sum_chunks {α : Type*} [AddCommMonoid α] (g : Fin 8192 → α) :
    (∑ c : Fin 8, ∑ j : Fin 1024, g (col c j)) = ∑ j : Fin 8192, g j := by
  rw [← Fintype.sum_prod_type']
  exact Equiv.sum_comp chunkEquiv g

/-- A row is never its own partner. -/
theorem lab_ne (i : Fin 8192) : i ≠ lab i := by
  intro h
  have h' := congrArg Fin.val h
  unfold lab at h'
  split_ifs at h' with hlt <;> simp only at h' <;> omega

/-! ### The law -/

theorem loss_eq (Z : Fin 8192 → Fin 256 → EReal) (hZ : ∀ i k, ∃ r : ℝ, Z i k = ((r : ℝ) : EReal))
    (M : Fin 8192 → EReal) (hM : ∀ i, ∃ r : ℝ, M i = ((r : ℝ) : EReal)) : lossK Z = lossR Z M := by
  choose z hz using hZ
  choose m hm using hM
  obtain ⟨f, hf⟩ := fill_real
  -- the similarities are real inner products
  have hsim : ∀ i j, sim Z i j = ((∑ k : Fin 256, z i k * z j k : ℝ) : EReal) := by
    intro i j
    unfold sim
    simp only [hz, ← EReal.coe_mul]
    exact Ideal.coe_finset_sum Finset.univ fun k => z i k * z j k
  -- the masked similarities are real
  have hmasked : ∀ i j, masked Z i j
      = (((if i = j then f else ∑ k : Fin 256, z i k * z j k) : ℝ) : EReal) := by
    intro i j
    unfold masked
    split_ifs with h
    · exact hf
    · exact hsim i j
  -- the common real logits
  let x : Fin 8192 → Fin 8192 → ℝ :=
    fun i j => (if i = j then f else ∑ k : Fin 256, z i k * z j k) * (134217728 / 9395241)
  have hscaled : ∀ i j, masked Z i j * scale = ((x i j : ℝ) : EReal) := by
    intro i j
    rw [hmasked, scale, ← EReal.coe_mul]
  have hlogit : ∀ i j, logit Z i j = ((x i j : ℝ) : EReal) := by
    intro i j
    rw [logit, temp_eq, Ideal.div_coe (by norm_num), hmasked, ← EReal.coe_mul]
    congr 1
    show _ = _ * (134217728 / 9395241 : ℝ)
    congr 1
    norm_num
  -- the one-hot sums pick the partner's logit
  have hpick : ∀ i, (∑ c : Fin 8, (∑ j : Fin 1024, if col c j = lab i then sim Z i (col c j) else 0) * scale)
      = ((x i (lab i) : ℝ) : EReal) := by
    intro i
    have hterm : ∀ c : Fin 8, (∑ j : Fin 1024, if col c j = lab i then sim Z i (col c j) else 0) * scale
        = (((∑ j : Fin 1024, if col c j = lab i then (∑ k : Fin 256, z i k * z (col c j) k) else 0)
            * (134217728 / 9395241) : ℝ) : EReal) := by
      intro c
      have hin : ∀ j : Fin 1024, (if col c j = lab i then sim Z i (col c j) else 0)
          = (((if col c j = lab i then (∑ k : Fin 256, z i k * z (col c j) k) else 0) : ℝ) : EReal) := by
        intro j
        split_ifs
        · exact hsim i (col c j)
        · exact EReal.coe_zero.symm
      simp only [hin]
      rw [Ideal.coe_finset_sum, scale, ← EReal.coe_mul]
    simp only [hterm]
    rw [Ideal.coe_finset_sum]
    congr 1
    rw [← Finset.sum_mul,
      sum_chunks (fun j : Fin 8192 => if j = lab i then (∑ k : Fin 256, z i k * z j k) else 0),
      Finset.sum_ite_eq' Finset.univ (lab i), if_pos (Finset.mem_univ _)]
    show _ = (if i = lab i then f else _) * _
    rw [if_neg (lab_ne i)]
  -- each chunked row is the cross-entropy row of the real logits
  have hrowK : ∀ i, rowK Z i
      = ((Real.log (∑ j : Fin 8192, Real.exp (x i j)) - x i (lab i) : ℝ) : EReal) := by
    intro i
    unfold rowK
    rw [hpick i, sum_chunks (fun j : Fin 8192 => Ideal.exp (masked Z i j * scale))]
    simp only [hscaled]
    rw [Ideal.log_sum_exp_coe (x i), ← EReal.coe_sub]
  -- each shifted log-softmax row is its negation, whatever the shift
  have hrowR : ∀ i, rowR Z M i
      = ((x i (lab i) - Real.log (∑ j : Fin 8192, Real.exp (x i j)) : ℝ) : EReal) := by
    intro i
    unfold rowR
    simp only [hlogit, hm]
    rw [Ideal.log_softmax_shift (x i) (m i) (lab i), Ideal.log_sum_exp_coe (x i), ← EReal.coe_sub]
  -- the means
  unfold lossK lossR
  simp only [hrowK, hrowR]
  rw [Ideal.coe_finset_sum, Ideal.coe_finset_sum, rows_eq, Ideal.div_coe (by norm_num), Ideal.div_coe (by norm_num),
    ← EReal.coe_mul, ← EReal.coe_mul, ← EReal.coe_neg]
  congr 1
  rw [← neg_mul, ← Finset.sum_neg_distrib]
  congr 1
  exact Finset.sum_congr rfl fun i _ => (neg_sub _ _).symm

end Cert.NTXent

end
-- ==== Proof.RefLogitReal.lean ====
/-
  The logits are real numbers when the rows are.

  A similarity is a finite sum of products of real numbers; the fill is a real number; so the masked similarity is
  real, and its quotient by the temperature, a nonzero real, is its product with the reciprocal: a real number.
-/
import proofs.«116952_j83391085019210_2_alg».proof.Proof.LossLaw

noncomputable section

namespace Cert.ReferenceIdeal.Hand

open Idealize.ShloMosaic
open scoped BigOperators

/-- Every logit of real rows is a real number. -/
theorem logit_real (Z : Fin 8192 → Fin 256 → EReal) (hZ : ∀ i k, ∃ r : ℝ, Z i k = ((r : ℝ) : EReal)) (i j : Fin 8192) :
    ∃ r : ℝ, Cert.NTXent.logit Z i j = ((r : ℝ) : EReal) := by
  choose z hz using hZ
  obtain ⟨f, hf⟩ := Cert.NTXent.fill_real
  have hsim : Cert.NTXent.sim Z i j = ((∑ k : Fin 256, z i k * z j k : ℝ) : EReal) := by
    unfold Cert.NTXent.sim
    simp only [hz, ← EReal.coe_mul]
    exact Ideal.coe_finset_sum Finset.univ fun k => z i k * z j k
  have hmasked : ∃ r : ℝ, Cert.NTXent.masked Z i j = ((r : ℝ) : EReal) := by
    unfold Cert.NTXent.masked
    split_ifs
    · exact ⟨f, hf⟩
    · exact ⟨_, hsim⟩
  obtain ⟨x, hx⟩ := hmasked
  unfold Cert.NTXent.logit
  rw [Cert.NTXent.temp_eq, Ideal.div_coe (by norm_num), hx, ← EReal.coe_mul]
  exact ⟨_, rfl⟩

end Cert.ReferenceIdeal.Hand

end
-- ==== Proof.RefValue.lean ====
/-
  The reference program's value.

  The result buffer of the reference program holds the contrastive loss of the normalized stacked inputs in the
  arrangement `Cert.NTXent.lossR`: per row the log-softmax of the logits, shifted by the row's running maximum (a real
  number, the logits being real), read at the partner; the rows averaged and negated.
-/
import proofs.«116952_j83391085019210_2_alg».proof.Proof.RefOpen
import proofs.«116952_j83391085019210_2_alg».proof.Proof.RefReads
import proofs.«116952_j83391085019210_2_alg».proof.Proof.RefLogitReal
import proofs.«116952_j83391085019210_2_alg».proof.Proof.Zn

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The reference's result is the loss of the normalized stacked inputs, shifted by real running maxima. -/
theorem res_eq (m : (ℓ : Loc nD τ sig) → Buf (Elt Ideal) ℓ) (c : Dev nD)
    (hZ : ∀ i k, ∃ r : ℝ, Cert.NTXent.Zof (m ((c.tc : Thread nD τ).loc main_arg0)) (m ((c.tc : Thread nD τ).loc main_arg1)) i k = ((r : ℝ) : EReal)) :
    ∃ M : Fin 8192 → EReal, (∀ i, ∃ r : ℝ, M i = ((r : ℝ) : EReal)) ∧
      Cert.ReferenceIdeal.ValueP.res (F := Ideal) m c
        = fun _ => Cert.NTXent.lossR (Cert.NTXent.Zof (m ((c.tc : Thread nD τ).loc main_arg0)) (m ((c.tc : Thread nD τ).loc main_arg1))) M := by
  refine ⟨fun i => rowMaxArr (logitsArr (Cert.NTXent.znArr (m ((c.tc : Thread nD τ).loc main_arg0)) (m ((c.tc : Thread nD τ).loc main_arg1)))) (ix1 i),
    fun i => ?_, ?_⟩
  · refine rowMaxArr_real _ i fun j => ?_
    rw [logitsArr_apply]
    exact logit_real _ hZ i j
  · rw [res_open]
    funext q
    exact value_of _ q

end Cert.ReferenceIdeal.Hand

end
-- ==== Proof.ZnReal.lean ====
/-
  The normalized rows are real numbers when the inputs are, and the printed precondition says the inputs are.

  An entry of the stacked array is an entry of one of the two inputs. A row's sum of squares is a finite sum of squares
  of real numbers, a nonnegative real; its square root is a nonnegative real; the maximum with the positive real 10⁻⁸
  is a positive real; and a real divided by a nonzero real is a real. The precondition compares every entry's absolute
  value with +∞ and takes the conjunction over all entries: an extended real whose absolute value is below +∞ is
  neither infinity.
-/
import proofs.«116952_j83391085019210_2_alg».proof.Proof.Zn
import proofs.«116952_j83391085019210_2_alg».proof.Pre_finite_inputs
import Idealize.ShloMosaic.Lib.IdealHost
import Idealize.ShloMosaic.Lib.ReduceAll

noncomputable section

namespace Cert.NTXent

open Idealize.ShloMosaic Idealize.ShloMosaic.ValueIdx
open Cert.ReferenceIdeal Cert.ReferenceIdeal.Gen
open scoped BigOperators

/-! ### Small facts about real numbers among the extended reals -/

/-- A finite sum of nonnegative reals is a nonnegative real. -/
theorem sum_real_nonneg {ι : Type*} (s : Finset ι) (f : ι → EReal)
    (hf : ∀ i ∈ s, ∃ r : ℝ, 0 ≤ r ∧ f i = ((r : ℝ) : EReal)) : ∃ r : ℝ, 0 ≤ r ∧ ∑ i ∈ s, f i = ((r : ℝ) : EReal) := by
  classical
  induction s using Finset.induction_on with
  | empty => exact ⟨0, le_refl _, by simp⟩
  | insert a s ha ih =>
    obtain ⟨r₁, h₁, e₁⟩ := hf a (Finset.mem_insert_self a s)
    obtain ⟨r₂, h₂, e₂⟩ := ih fun i hi => hf i (Finset.mem_insert_of_mem hi)
    exact ⟨r₁ + r₂, add_nonneg h₁ h₂, by rw [Finset.sum_insert ha, e₁, e₂, EReal.coe_add]⟩

/-- The clamp 10⁻⁸, as the float the programs carry, is a positive real. -/
theorem eps_pos : ∃ r : ℝ, 0 < r ∧ Ideal.ofBits .f32 0x322BCC77#32 = ((r : ℝ) : EReal) := by
  refine ⟨11258999 / 1125899906842624, by norm_num, ?_⟩
  simp [Ideal.ofBits, Ideal.ieee, -EReal.coe_mul]; norm_num

/-! ### Reading the layout operations -/

/-- A broadcast reads its operand at some index. -/
theorem bcast_exists {α : Type} {s t : Shape} (dims : Fin s.rank → Fin t.rank) (h : s.BroadcastsInDim t dims)
    (x : s.Idx → α) (j : t.Idx) : ∃ k : s.Idx, broadcastInDim t dims h x j = x k := ⟨_, rfl⟩

/-- An entry of a concatenation is an entry of one of the pieces. -/
theorem concatenate_mem {α : Type} {t : Shape} (a : Fin t.rank) (xs : List ((s : Shape) × (s.Idx → α)))
    (h : Shape.Concatenates (xs.map (·.1)) t a) (j : t.Idx) :
    ∃ p ∈ xs, ∃ k : p.1.Idx, concatenate t a xs h j = p.2 k := by
  unfold concatenate
  exact ⟨_, List.getElem_mem _, _, rfl⟩

/-! ### The normalized rows -/

/-- The stacked array's entries are real. -/
theorem zcat_real (a b : FVec Ideal S4096x256 .f32)
    (ha : ∀ x, ∃ r : ℝ, a x = ((r : ℝ) : EReal)) (hb : ∀ x, ∃ r : ℝ, b x = ((r : ℝ) : EReal)) :
    ∀ j, ∃ r : ℝ, zcat a b j = ((r : ℝ) : EReal) := by
  intro j
  obtain ⟨p, hp, k, hk⟩ := concatenate_mem (0 : Fin S8192x256.rank) [⟨S4096x256, a⟩, ⟨S4096x256, b⟩]
    concatenates_S4096x256_S4096x256_S8192x256_d0 j
  unfold zcat
  rw [hk]
  simp only [List.mem_cons, List.not_mem_nil, or_false] at hp
  rcases hp with rfl | rfl
  · exact ha k
  · exact hb k

/-- The rows' sums of squares. -/
def sumsq (z : FVec Ideal S8192x256 .f32) : FVec Ideal S8192 .f32 :=
  Host.reduceAdd (F := Ideal) (mulf (F := Ideal) z z) (constant (F := Ideal) S_ .f32 0x00000000#32)
    reducesTo_S8192x256_S8192_d1 h_S_

/-- A sum of squares of real numbers is a nonnegative real. -/
theorem sumsq_nonneg (z : FVec Ideal S8192x256 .f32) (hz : ∀ j, ∃ r : ℝ, z j = ((r : ℝ) : EReal)) :
    ∀ k, ∃ r : ℝ, 0 ≤ r ∧ sumsq z k = ((r : ℝ) : EReal) := by
  intro k
  unfold sumsq
  rw [hostReduceAdd_apply, constant_apply, Ideal.ofBits_zero_f32]
  unfold Ideal.hostReduceAdd
  rw [zero_add]
  refine sum_real_nonneg _ _ fun i _ => ?_
  obtain ⟨r, hr⟩ := hz i
  exact ⟨r * r, mul_self_nonneg r, by rw [mulf_apply, hr, ← EReal.coe_mul]⟩

/-- The clamped norm at an index: the larger of the root of the row's sum of squares and 10⁻⁸. -/
theorem znorm_apply (z : FVec Ideal S8192x256 .f32) (j : S8192x1.Idx) :
    znorm z j = max (Ideal.sqrt (broadcastInDim S8192x1 ![0] bcast_S8192_S8192x1_0 (sumsq z) j))
      (Ideal.ofBits .f32 0x322BCC77#32) := rfl

/-- The clamped norms are positive reals. -/
theorem znorm_pos (z : FVec Ideal S8192x256 .f32) (hz : ∀ j, ∃ r : ℝ, z j = ((r : ℝ) : EReal)) :
    ∀ j, ∃ r : ℝ, 0 < r ∧ znorm z j = ((r : ℝ) : EReal) := by
  intro j
  obtain ⟨k, hk⟩ := bcast_exists ![0] bcast_S8192_S8192x1_0 (sumsq z) j
  obtain ⟨s, hs, es⟩ := sumsq_nonneg z hz k
  obtain ⟨c, hc, ec⟩ := eps_pos
  rw [znorm_apply, hk, es, ec, Ideal.sqrt_coe, if_neg (not_lt.mpr hs)]
  exact ⟨max (Real.sqrt s) c, lt_max_of_lt_right hc, (EReal.coe_strictMono.monotone.map_max).symm⟩

/-- the normalized rows are real when the inputs are -/
theorem zn_real (a b : FVec Ideal Cert.ReferenceIdeal.S4096x256 .f32)
    (ha : ∀ x, ∃ r : ℝ, a x = ((r : ℝ) : EReal)) (hb : ∀ x, ∃ r : ℝ, b x = ((r : ℝ) : EReal)) :
    ∀ i k, ∃ r : ℝ, Zof a b i k = ((r : ℝ) : EReal) := by
  intro i k
  obtain ⟨k', hk'⟩ := bcast_exists ![0, 1] bcast_S8192x1_S8192x256_0_1 (znorm (zcat a b)) (ix2 i k)
  obtain ⟨x, hx⟩ := zcat_real a b ha hb (ix2 i k)
  obtain ⟨n, hn, en⟩ := znorm_pos (zcat a b) (zcat_real a b ha hb) k'
  show ∃ r : ℝ, Ideal.div (zcat a b (ix2 i k))
    (broadcastInDim S8192x256 ![0, 1] bcast_S8192x1_S8192x256_0_1 (znorm (zcat a b)) (ix2 i k)) = ((r : ℝ) : EReal)
  rw [hk', hx, en, Ideal.div_coe hn.ne', ← EReal.coe_mul]
  exact ⟨_, rfl⟩

/-! ### The precondition -/

instance : Subsingleton Cert.Pre_finite_inputs.S_.Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- the printed precondition says every input entry is real -/
theorem pre_real [Cert.Pre_finite_inputs.Facts] (a b : FVec Ideal Cert.ReferenceIdeal.S4096x256 .f32)
    (h : Cert.Pre_finite_inputs.fn (F := Ideal) a b = (fun _ => 1#1)) :
    (∀ x, ∃ r : ℝ, a x = ((r : ℝ) : EReal)) ∧ (∀ x, ∃ r : ℝ, b x = ((r : ℝ) : EReal)) := by
  have h0 := congrFun h ValueIdx.ix0
  dsimp only [Cert.Pre_finite_inputs.fn] at h0
  obtain ⟨h1, h2⟩ := IntOp.andi_eq_one.1 h0
  exact ⟨fun x => real_of_abs_lt_inf (a x) (Host.reduce_andi_all _ _ _ _ _ h1 x),
    fun x => real_of_abs_lt_inf (b x) (Host.reduce_andi_all _ _ _ _ _ h2 x)⟩

end Cert.NTXent

end
-- ==== Proof.lean ====
/-
  The certificate: a contrastive (NT-Xent) loss kernel against its reference, as extended reals.

  Both programs stack the two inputs into 8192 rows, divide each row by its Euclidean norm clamped from below by 10⁻⁸,
  and form the 8192 × 8192 matrix of inner products of the normalized rows, its diagonal replaced by a large negative
  fill. The kernel multiplies by a scale, exponentiates and sums each row 1024 columns at a time, takes the logarithm
  and subtracts the scaled similarity with the row's partner (row ± 4096), then averages. The reference divides by a
  temperature, takes a log-softmax shifted by the row's maximum, reads it at the partner, averages and negates.
  With the kernel's scale named the exact reciprocal of the reference's temperature the two are one function of
  the inputs whenever the inputs are finite: the shift cancels between the logit and the log-sum-exp (real numbers
  throughout, which is where finiteness is used), a sum taken in eight chunks is the whole sum, and a one-hot sum picks
  its column.

  The three frames: each kernel program's run (host operations, the pipelined region whose two reading windows share
  one array at half shares, host operations) leaves both inputs as launched; the reference's run is a straight line of
  host operations. The named scale's sixteen occurrences are the ideal pass's sixteen ledger entries.
-/
import proofs.«116952_j83391085019210_2_alg».proof.Defs
import proofs.«116952_j83391085019210_2_alg».proof.Proof.Gen.Kernel
import proofs.«116952_j83391085019210_2_alg».proof.Proof.Gen.KernelIdeal
import proofs.«116952_j83391085019210_2_alg».proof.Proof.Gen.ReferenceIdeal
import proofs.«116952_j83391085019210_2_alg».proof.Proof.Gen.Pre_finite_inputs
import proofs.«116952_j83391085019210_2_alg».proof.Proof.KFrame
import proofs.«116952_j83391085019210_2_alg».proof.Proof.KiValue
import proofs.«116952_j83391085019210_2_alg».proof.Proof.RefRunP
import proofs.«116952_j83391085019210_2_alg».proof.Proof.RefValue
import proofs.«116952_j83391085019210_2_alg».proof.Proof.LossLaw
import proofs.«116952_j83391085019210_2_alg».proof.Proof.ZnReal
import Idealize.ShloMosaic.Adequacy
import Idealize.ShloMosaic.Init

noncomputable section

namespace Cert.Proof

open Idealize.ShloMosaic Idealize.SL.Sem

/-- The word-level kernel runs and leaves its inputs as launched. -/
theorem frame_k : Cert.frame_Kernel (hKernel := Cert.Kernel.Gen.facts) (hPre_finite_inputs := Cert.Pre_finite_inputs.Gen.facts) :=
  fun m ρ _ => Cert.Kernel.Hand.frame m ρ

/-- The idealized kernel runs and leaves its inputs as launched. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its inputs as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The scale's sixteen occurrences: each is the exact reciprocal of the reference's temperature at the ideal instance,
    by the certificate's table. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl⟩

/-- From memories agreeing on the inputs, both idealized programs run, and return the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.NTXent.lossK (Cert.KernelIdeal.Hand.Zm m c), Cert.KernelIdeal.Hand.run_value m ρ, ?_⟩
  refine (θ_run Cert.ReferenceIdeal.defs _ _).mono (fun r h c => ⟨?_, (h c).2⟩) (Cert.ReferenceIdeal.ValueP.run (F := Ideal) m' ρ')
  obtain ⟨ha, hb⟩ := Cert.NTXent.pre_real _ _ (hpre c)
  have hZ := Cert.NTXent.zn_real _ _ ha hb
  obtain ⟨M, hM, hres⟩ := Cert.ReferenceIdeal.Hand.res_eq m' c (by rw [(hagree c).1, (hagree c).2]; exact hZ)
  rw [(h c).1, hres, (hagree c).1, (hagree c).2]
  funext _
  exact (Cert.NTXent.loss_eq _ hZ M hM).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
